-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_5)) (v4 : (c : Dev Cert.KernelIdeal.nD) → Buf (Elt Ideal) ((c.tc : Thread Cert.KernelIdeal.nD Cert.KernelIdeal.τ).loc Cert.KernelIdeal.main_v0_6)) (v5 : (c : Dev Cert.KernelIdeal.nD) → Buf (Elt Ideal) ((c.tc : Thread Cert.KernelIdeal.nD Cert.KernelIdeal.τ).loc Cert.KernelIdeal.main_v0_3)) (v6 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_5) = v3 c
          ∧ r.2.mem ((c.tc : Thread Cert.KernelIdeal.nD Cert.KernelIdeal.τ).loc Cert.KernelIdeal.main_v0_6) = v4 c
          ∧ r.2.mem ((c.tc : Thread Cert.KernelIdeal.nD Cert.KernelIdeal.τ).loc Cert.KernelIdeal.main_v0_3) = v5 c
          ∧ r.2.mem ((c.tc : Thread Cert.KernelIdeal.nD Cert.KernelIdeal.τ).loc Cert.KernelIdeal.main_v0_4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v21) = v5 c
          ∧ r.2.mem ((c.tc : Thread Cert.ReferenceIdeal.nD Cert.ReferenceIdeal.τ).loc Cert.ReferenceIdeal.main_v23) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S2 : Shape := ⟨1, ![2]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel

variable [Facts]

def fn {F : FTy → Type} [FloatOps F] (main_arg0 : FVec F S1x8192 .f32) (main_arg1 : FVec F S1x8192 .f32) (main_arg2 : FVec F S1x8192 .f32) (main_arg3 : IVec S2 32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S1x8192 : Shape := ⟨2, ![1, 8192]⟩
abbrev S2 : Shape := ⟨1, ![2]⟩
abbrev S8192x8192 : Shape := ⟨2, ![8192, 8192]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 20
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S2, .i32⟩
  | .hbm, ⟨4, _⟩ => ⟨S1x8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S8192x8192, .f32⟩
  | .hbm, ⟨10, _⟩ => ⟨S8192x8192, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x1024_S1x1024_0_0 : ∀ a, (![0, 0] : Fin 2 → Nat) a + S1x1024.size a ≤ S1x1024.size a
  h_S1x1024 : 0 < S1x1024.numel
  inb_S1024x1024_S1024x1024_0_0 : ∀ a, (![0, 0] : Fin 2 → Nat) a + S1024x1024.size a ≤ S1024x1024.size a
  h_S1024x1024 : 0 < S1024x1024.numel
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1x1024_S1x1024 : S1x1024.ShapeCasts S1x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .f32 = 32 ∨ (Rect.block (s := S1x8192) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x8192.size a
  hwx0_8 : ∀ i : grid0.Coords, EltTy.bits .f32 = 32 ∨ (Rect.block (s := S8192x8192) S1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S8192x8192.size a
  hwx0_9 : ∀ i : grid0.Coords, EltTy.bits .f32 = 32 ∨ (Rect.block (s := S8192x8192) S1024x1024.size (cc0_transform_9 i) (hinb0_9 i)).WholeWords (EltTy.packing .f32)

variable [Facts₀]

abbrev win0_0 : Pipeline.Window sig grid0 :=
  Pipeline.Window.ofSpec (Memref.whole main_arg0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_6) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun i => !(k0_cond1 i == 1#1) | 4 => fun i => !(k0_cond1 i == 1#1) | 5 => fun i => !(k0_cond1 i == 1#1) | 6 => fun i => !(k0_cond1 i == 1#1) | 7 => fun i => !(k0_cond1 i == 1#1) | 8 => fun _ => false | 9 => fun _ => false | ⟨_ + 10, h⟩ => absurd h (Nat.not_lt.2 (Nat.le_add_left _ _))

class Facts : Prop extends Facts₀ where

variable [Facts]
-- ==== ReferenceIdeal.lean ====
abbrev S1x8192 : Shape := ⟨2, ![1, 8192]⟩
abbrev S2 : Shape := ⟨1, ![2]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S2, .i32⟩
  | .hbm, ⟨4, _⟩ => ⟨S_, .f32⟩
  | .hbm, ⟨5, _⟩ => ⟨S1x8192, .f32⟩
  | .hbm, ⟨6, _⟩ => ⟨S1x8192, .f32⟩
  | .hbm, ⟨7, _⟩ => ⟨S_, .f32⟩
  | .hbm, ⟨8, _⟩ => ⟨S1x8192, .f32⟩
  | .hbm, ⟨9, _⟩ => ⟨S1x8192, .i1⟩
  | .hbm, ⟨10, _⟩ => ⟨S_, .f32⟩
  | .hbm, ⟨11, _⟩ => ⟨S1x8192, .f32⟩
  | .hbm, ⟨12, _⟩ => ⟨S1x8192, .i1⟩
  | .hbm, ⟨13, _⟩ => ⟨S1x8192, .i1⟩
  | .hbm, ⟨14, _⟩ => ⟨S1x8192, .i1⟩
  | .hbm, ⟨15, _⟩ => ⟨S1x8192, .i1⟩
  | .hbm, ⟨16, _⟩ => ⟨S1x8192, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S_, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S1x8192, .f32⟩
  | .hbm, ⟨30, _⟩ => ⟨S_, .f32⟩
  | .hbm, ⟨31, _⟩ => ⟨S_, .f32⟩
  | .hbm, ⟨32, _⟩ => ⟨S1x8192, .f32⟩
  | .hbm, ⟨33, _⟩ => ⟨S1x8192, .f32⟩
  | .hbm, ⟨34, _⟩ => ⟨S_, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x8192, .f32⟩
  | .hbm, ⟨39, _⟩ => ⟨S_, .f32⟩
  | .hbm, ⟨40, _⟩ => ⟨S_, .f32⟩
  | .hbm, ⟨41, _⟩ => ⟨S1x8192, .f32⟩
  | .hbm, ⟨42, _⟩ => ⟨S1x8192, .f32⟩
  | .hbm, ⟨43, _⟩ => ⟨S_, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S_, .f32⟩
  | .hbm, ⟨48, _⟩ => ⟨S1x8192, .f32⟩
  | .hbm, ⟨49, _⟩ => ⟨S1x8192, .f32⟩
  | .hbm, ⟨50, _⟩ => ⟨S_, .f32⟩
  | .hbm, ⟨51, _⟩ => ⟨S_, .f32⟩
  | .hbm, ⟨52, _⟩ => ⟨S1x8192, .f32⟩
  | .hbm, ⟨53, _⟩ => ⟨S1x8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192x8192, .i32⟩
  | .hbm, ⟨58, _⟩ => ⟨S8192x8192, .i32⟩
  | .hbm, ⟨59, _⟩ => ⟨S_, .i32⟩
  | .hbm, ⟨60, _⟩ => ⟨S8192x8192, .i32⟩
  | .hbm, ⟨61, _⟩ => ⟨S8192x8192, .i32⟩
  | .hbm, ⟨62, _⟩ => ⟨S8192x8192, .i1⟩
  | .hbm, ⟨63, _⟩ => ⟨S8192x1, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192x8192, .i32⟩
  | .hbm, ⟨72, _⟩ => ⟨S8192x8192, .i32⟩
  | .hbm, ⟨73, _⟩ => ⟨S_, .i32⟩
  | .hbm, ⟨74, _⟩ => ⟨S8192x8192, .i32⟩
  | .hbm, ⟨75, _⟩ => ⟨S8192x8192, .i32⟩
  | .hbm, ⟨76, _⟩ => ⟨S8192x8192, .i1⟩
  | .hbm, ⟨77, _⟩ => ⟨S8192x1, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call3_v0 : Ref sig .tc := ⟨.hbm, 25, rfl⟩
abbrev main_call3_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call5_v0 : Ref sig .tc := ⟨.hbm, 31, rfl⟩
abbrev main_call5_v1 : Ref sig .tc := ⟨.hbm, 32, rfl⟩
abbrev main_v17 : Ref sig .tc := ⟨.hbm, 33, rfl⟩
abbrev main_cst_5 : Ref sig .tc := ⟨.hbm, 34, rfl⟩
abbrev main_cst_6 : Ref sig .tc := ⟨.hbm, 35, rfl⟩
abbrev main_call6_v0 : Ref sig .tc := ⟨.hbm, 36, rfl⟩
abbrev main_call6_v1 : Ref sig .tc := ⟨.hbm, 37, rfl⟩
abbrev main_v18 : Ref sig .tc := ⟨.hbm, 38, rfl⟩
abbrev main_cst_7 : Ref sig .tc := ⟨.hbm, 39, rfl⟩
abbrev main_call7_v0 : Ref sig .tc := ⟨.hbm, 40, rfl⟩
abbrev main_call7_v1 : Ref sig .tc := ⟨.hbm, 41, rfl⟩
abbrev main_v19 : Ref sig .tc := ⟨.hbm, 42, rfl⟩
abbrev main_cst_8 : Ref sig .tc := ⟨.hbm, 43, rfl⟩
abbrev main_call8_v0 : Ref sig .tc := ⟨.hbm, 44, rfl⟩
abbrev main_call8_v1 : Ref sig .tc := ⟨.hbm, 45, rfl⟩
abbrev main_v20 : Ref sig .tc := ⟨.hbm, 46, rfl⟩
abbrev main_cst_9 : Ref sig .tc := ⟨.hbm, 47, rfl⟩
abbrev main_v21 : Ref sig .tc := ⟨.hbm, 48, rfl⟩
abbrev main_v22 : Ref sig .tc := ⟨.hbm, 49, rfl⟩
abbrev main_cst_10 : Ref sig .tc := ⟨.hbm, 50, rfl⟩
abbrev main_call9_v0 : Ref sig .tc := ⟨.hbm, 51, rfl⟩
abbrev main_call9_v1 : Ref sig .tc := ⟨.hbm, 52, rfl⟩
abbrev main_v23 : Ref sig .tc := ⟨.hbm, 53, rfl⟩
abbrev main_v24 : Ref sig .tc := ⟨.hbm, 54, rfl⟩
abbrev main_call10_cst : Ref sig .tc := ⟨.hbm, 55, rfl⟩
abbrev main_call10_v0 : Ref sig .tc := ⟨.hbm, 56, rfl⟩
abbrev main_call10_v1 : Ref sig .tc := ⟨.hbm, 57, rfl⟩
abbrev main_call10_v2 : Ref sig .tc := ⟨.hbm, 58, rfl⟩
abbrev main_call10_c : Ref sig .tc := ⟨.hbm, 59, rfl⟩
abbrev main_call10_v3 : Ref sig .tc := ⟨.hbm, 60, rfl⟩
abbrev main_call10_v4 : Ref sig .tc := ⟨.hbm, 61, rfl⟩
abbrev main_call10_v5 : Ref sig .tc := ⟨.hbm, 62, rfl⟩
abbrev main_call10_v6 : Ref sig .tc := ⟨.hbm, 63, rfl⟩
abbrev main_call10_cst_0 : Ref sig .tc := ⟨.hbm, 64, rfl⟩
abbrev main_call10_call0_v0 : Ref sig .tc := ⟨.hbm, 65, rfl⟩
abbrev main_call10_call0_v1 : Ref sig .tc := ⟨.hbm, 66, rfl⟩
abbrev main_v25 : Ref sig .tc := ⟨.hbm, 67, rfl⟩
abbrev main_v26 : Ref sig .tc := ⟨.hbm, 68, rfl⟩
abbrev main_call11_cst : Ref sig .tc := ⟨.hbm, 69, rfl⟩
abbrev main_call11_v0 : Ref sig .tc := ⟨.hbm, 70, rfl⟩
abbrev main_call11_v1 : Ref sig .tc := ⟨.hbm, 71, rfl⟩
abbrev main_call11_v2 : Ref sig .tc := ⟨.hbm, 72, rfl⟩
abbrev main_call11_c : Ref sig .tc := ⟨.hbm, 73, rfl⟩
abbrev main_call11_v3 : Ref sig .tc := ⟨.hbm, 74, rfl⟩
abbrev main_call11_v4 : Ref sig .tc := ⟨.hbm, 75, rfl⟩
abbrev main_call11_v5 : Ref sig .tc := ⟨.hbm, 76, rfl⟩
abbrev main_call11_v6 : Ref sig .tc := ⟨.hbm, 77, rfl⟩
abbrev main_call11_cst_0 : Ref sig .tc := ⟨.hbm, 78, rfl⟩
abbrev main_call11_call0_v0 : Ref sig .tc := ⟨.hbm, 79, rfl⟩
abbrev main_call11_call0_v1 : Ref sig .tc := ⟨.hbm, 80, rfl⟩
abbrev main_v27 : Ref sig .tc := ⟨.hbm, 81, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  shapeCasts_S1x8192_S8192 : S1x8192.ShapeCasts S8192
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.K.Sched.lean ====
/-
  The grid's schedule in closed form. The grid is 8 × 8, point `t` being row-block `t / 8` and column-block `t % 8`.
  The five row outputs are stored only at the first column-block of each row-block (`t % 8 = 0`) and are idle at the
  other seven; the two matrix tiles get their diagonal segment only where row-block = column-block (`t % 9 = 0`).
-/
import proofs.«158999_j2800318677430_2_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first conditional: the column-block is 0. -/
abbrev condCol0 (i : grid0.Coords) : Prop := k0_cond1 i = 1#1
theorem condCol0_iff : ∀ t : Fin cfg0.N, condCol0 (grid0.coords t) ↔ t.val % 8 = 0 :=
  (by decide +kernel : ∀ t : Fin grid0.N, condCol0 (grid0.coords t) ↔ t.val % 8 = 0)

/-- The body's second conditional: row-block = column-block. -/
abbrev condDiag (i : grid0.Coords) : Prop :=
  (Scalar.cmpi .ne (Scalar.extui (Scalar.cmpi .eq (BitVec.ofNat 32 (i 0).val) (BitVec.ofNat 32 (i 1).val))) 0#32) = 1#1
theorem condDiag_iff : ∀ t : Fin cfg0.N, condDiag (grid0.coords t) ↔ t.val % 9 = 0 :=
  (by decide +kernel : ∀ t : Fin grid0.N, condDiag (grid0.coords t) ↔ t.val % 9 = 0)

/-- The inputs and the two matrix outputs are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel

/-- The row outputs are idle exactly off the first column-block. -/
theorem idle_3 : ∀ t : Fin cfg0.N, cfg0.idle 3 (grid0.coords t) = !decide (t.val % 8 = 0) :=
  (by decide +kernel : ∀ t : Fin grid0.N, cfg0.idle 3 (grid0.coords t) = !decide (t.val % 8 = 0))
theorem idle_4 : ∀ t : Fin cfg0.N, cfg0.idle 4 (grid0.coords t) = !decide (t.val % 8 = 0) :=
  (by decide +kernel : ∀ t : Fin grid0.N, cfg0.idle 4 (grid0.coords t) = !decide (t.val % 8 = 0))
theorem idle_5 : ∀ t : Fin cfg0.N, cfg0.idle 5 (grid0.coords t) = !decide (t.val % 8 = 0) :=
  (by decide +kernel : ∀ t : Fin grid0.N, cfg0.idle 5 (grid0.coords t) = !decide (t.val % 8 = 0))
theorem idle_6 : ∀ t : Fin cfg0.N, cfg0.idle 6 (grid0.coords t) = !decide (t.val % 8 = 0) :=
  (by decide +kernel : ∀ t : Fin grid0.N, cfg0.idle 6 (grid0.coords t) = !decide (t.val % 8 = 0))
theorem idle_7 : ∀ t : Fin cfg0.N, cfg0.idle 7 (grid0.coords t) = !decide (t.val % 8 = 0) :=
  (by decide +kernel : ∀ t : Fin grid0.N, cfg0.idle 7 (grid0.coords t) = !decide (t.val % 8 = 0))

/-- Each window's current staging memref at point `t`, as the pipeline passes it to the body, and its wholeness. -/
abbrev ms0 (t : Fin cfg0.N) : Memref sig .tc .vmem S1x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1024 .f32 := win0_9.stage (cfg0.slots t 9)
abbrev hs9 (t : Fin cfg0.N) : (ms9 t).IsWhole := hstage0_9 ((cfg0.slots t 9).cast nbuf0_9)

/-- One staging buffer of each output window, through which its contents are stated. -/
abbrev VO3 : View sig .tc .vmem S1x1024 .f32 := (Memref.whole cc0_stg3_0 : Memref sig .tc .vmem S1x1024 .f32).view
abbrev VO4 : View sig .tc .vmem S1x1024 .f32 := (Memref.whole cc0_stg4_0 : Memref sig .tc .vmem S1x1024 .f32).view
abbrev VO5 : View sig .tc .vmem S1x1024 .f32 := (Memref.whole cc0_stg5_0 : Memref sig .tc .vmem S1x1024 .f32).view
abbrev VO6 : View sig .tc .vmem S1x1024 .f32 := (Memref.whole cc0_stg6_0 : Memref sig .tc .vmem S1x1024 .f32).view
abbrev VO7 : View sig .tc .vmem S1x1024 .f32 := (Memref.whole cc0_stg7_0 : Memref sig .tc .vmem S1x1024 .f32).view
abbrev VO8 : View sig .tc .vmem S1024x1024 .f32 := (Memref.whole cc0_stg8_0 : Memref sig .tc .vmem S1024x1024 .f32).view
abbrev VO9 : View sig .tc .vmem S1024x1024 .f32 := (Memref.whole cc0_stg9_0 : Memref sig .tc .vmem S1024x1024 .f32).view

end Cert.Kernel.Body

end
-- ==== Proof.K.RunA.lean ====
/-
  The kernel body run symbolically at a point whose column-block is 0 and whose row-block equals its column-block.
-/
import proofs.«158999_j2800318677430_2_alg».proof.Proof.K.Sched
import proofs.«158999_j2800318677430_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of the first column-block, on the diagonal of blocks: on whole staging memrefs, the three inputs at
    their contents, every output it stores into at anything, the body runs and hands the inputs back as they
    were and each stored output with its pieces written, last store first. The pieces are the witness the run finds. -/
noncomputable def runA (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32) :
    Σ' (L3 : List (View.Piece (Elt F) S1x1024 .f32)), Σ' (L4 : List (View.Piece (Elt F) S1x1024 .f32)), Σ' (L5 : List (View.Piece (Elt F) S1x1024 .f32)), Σ' (L6 : List (View.Piece (Elt F) S1x1024 .f32)), Σ' (L7 : List (View.Piece (Elt F) S1x1024 .f32)), Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Body

end
-- ==== Proof.K.RunB.lean ====
/-
  The kernel body run symbolically at a point whose column-block is not 0 and whose row-block differs from its column-block.
-/
import proofs.«158999_j2800318677430_2_alg».proof.Proof.K.Sched
import proofs.«158999_j2800318677430_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point off the first column-block, off the diagonal of blocks: on whole staging memrefs, the three inputs at
    their contents (the five row outputs are not touched and are left out), every output it stores into at anything, the body runs and hands the inputs back as they
    were and each stored output with its pieces written, last store first. The pieces are the witness the run finds. -/
noncomputable def runB (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : ¬condDiag i)
    (x0 : Vec F S1x1024 .f32) (x1 : Vec F S1x1024 .f32) (x2 : Vec F S1x1024 .f32) :
    Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    iexists _; iexact H9

end Cert.Kernel.Body

end
-- ==== Proof.K.RunC.lean ====
/-
  The kernel body run symbolically at a point whose column-block is 0 and whose row-block differs from its column-block.
-/
import proofs.«158999_j2800318677430_2_alg».proof.Proof.K.Sched
import proofs.«158999_j2800318677430_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of the first column-block, off the diagonal of blocks: on whole staging memrefs, the three inputs at
    their contents, every output it stores into at anything, the body runs and hands the inputs back as they
    were and each stored output with its pieces written, last store first. The pieces are the witness the run finds. -/
noncomputable def runC (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32) :
    Σ' (L3 : List (View.Piece (Elt F) S1x1024 .f32)), Σ' (L4 : List (View.Piece (Elt F) S1x1024 .f32)), Σ' (L5 : List (View.Piece (Elt F) S1x1024 .f32)), Σ' (L6 : List (View.Piece (Elt F) S1x1024 .f32)), Σ' (L7 : List (View.Piece (Elt F) S1x1024 .f32)), Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Body

end
-- ==== Proof.K.RunD.lean ====
/-
  The kernel body run symbolically at a point whose column-block is not 0 and whose row-block equals its column-block.
-/
import proofs.«158999_j2800318677430_2_alg».proof.Proof.K.Sched
import proofs.«158999_j2800318677430_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point off the first column-block, on the diagonal of blocks: on whole staging memrefs, the three inputs at
    their contents (the five row outputs are not touched and are left out), every output it stores into at anything, the body runs and hands the inputs back as they
    were and each stored output with its pieces written, last store first. The pieces are the witness the run finds. -/
noncomputable def runD (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : condDiag i)
    (x0 : Vec F S1x1024 .f32) (x1 : Vec F S1x1024 .f32) (x2 : Vec F S1x1024 .f32) :
    Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    iexists _; iexact H9

end Cert.Kernel.Body

end
-- ==== Proof.K.Pieces.lean ====
/-
  What each case of the body leaves in each output's staging buffer, read back: every store is of a whole block, so the
  buffer reads as the payload of the LAST store into it, whatever it held before — the row outputs at the body's pointwise
  functions of the loaded input blocks, the matrix tiles at the diagonal segment (when the second store happens) or at zero.
-/
import proofs.«158999_j2800318677430_2_alg».proof.Proof.K.RunA
import proofs.«158999_j2800318677430_2_alg».proof.Proof.K.RunB
import proofs.«158999_j2800318677430_2_alg».proof.Proof.K.RunC
import proofs.«158999_j2800318677430_2_alg».proof.Proof.K.RunD
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A whole-block store, made last, leaves its payload, whatever the earlier stores and the prior contents. -/
theorem read_writes_head_whole {S : Shape} {e : EltTy} {sg : RefSig} {κ : Kind} {sp : Space} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

theorem runA_w3 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).1) = k0_pay10 x0 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w4 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.1) = k0_pay11 x1 x2 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w5 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.1) = k0_pay12 x1 x2 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w6 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.1) = k0_pay13 (F := F) := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w7 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.2.1) = k0_pay14 x1 x2 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.2.2.1) = k0_pay2 (k0_pay8 x2) := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.2.2.2.1) = k0_pay3 (k0_pay9 x1 x2) := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w3 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).1) = k0_pay10 x0 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w4 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.1) = k0_pay11 x1 x2 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w5 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.1) = k0_pay12 x1 x2 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w6 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.1) = k0_pay13 (F := F) := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w7 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.2.1) = k0_pay14 x1 x2 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.2.2.1) = k0_pay15 (F := F) := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.2.2.2.1) = k0_pay16 (F := F) := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runB_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 hc0 hc1 x0 x1 x2).1) = k0_pay15 (F := F) := by
  unfold runB
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runB_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 hc0 hc1 x0 x1 x2).2.1) = k0_pay16 (F := F) := by
  unfold runB
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runD_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 hc0 hc1 x0 x1 x2).1) = k0_pay2 (k0_pay8 x2) := by
  unfold runD
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runD_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 hc0 hc1 x0 x1 x2).2.1) = k0_pay3 (k0_pay9 x1 x2) := by
  unfold runD
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

end Cert.Kernel.Body

end
-- ==== Proof.K.Data.lean ====
/-
  The proof data of the pipeline: what each window's staging buffer holds after the body at each grid point.

  Point `t` is row-block `t / 8`, column-block `t % 8`. The three inputs and the five row outputs are 1 × 1024 blocks
  that move with the ROW-block only, so across the eight points of a row-block nothing of them changes: the row outputs,
  stored at the first of the eight points, are a function of the row-block's input entries alone, and we state them so at
  EVERY point — at the seven idle points the buffer still holds what the first point stored. The two matrix tiles are
  1024 × 1024: the diagonal segment where row-block = column-block, zero elsewhere.
-/
import proofs.«158999_j2800318677430_2_alg».proof.Proof.K.Sched
import proofs.«158999_j2800318677430_2_alg».proof.Proof.Gen.Kernel.Skeleton
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row-block of point `t`. -/
def blkRow (t : Fin cfg0.N) : Fin 8 := ⟨t.val / 8, by have := t.isLt; have h : cfg0.N = 64 := N_0; omega⟩

/-- Row-block `k` of a 1 × 8192 row: its entries `1024 k … 1024 k + 1023`. -/
def rowBlk (A : Vec F S1x8192 .f32) (k : Fin 8) : Vec F S1x1024 .f32 := fun y =>
  A (ValueIdx.ix2 (0 : Fin 1) (⟨1024 * k.val + (y 1).val, by have := ValueIdx.idx2_lt1 y; have := k.isLt; omega⟩ : Fin 8192))

/-- The three input rows' blocks at point `t`, read off the arrays as the region finds them. -/
abbrev xBlk (c : Dev nD) (t : Fin cfg0.N) : Vec F S1x1024 .f32 := rowBlk (V m c main_arg0) (blkRow t)
abbrev loBlk (c : Dev nD) (t : Fin cfg0.N) : Vec F S1x1024 .f32 := rowBlk (V m c main_arg1) (blkRow t)
abbrev upBlk (c : Dev nD) (t : Fin cfg0.N) : Vec F S1x1024 .f32 := rowBlk (V m c main_arg2) (blkRow t)

/-- The lower-weight tile at point `t`: the diagonal segment on the diagonal of blocks, zero off it. -/
def tileLo (t : Fin cfg0.N) (up : Vec F S1x1024 .f32) : Vec F S1024x1024 .f32 :=
  if t.val % 9 = 0 then k0_pay2 (k0_pay8 up) else k0_pay15
/-- The upper-weight tile at point `t`. -/
def tileUp (t : Fin cfg0.N) (lo up : Vec F S1x1024 .f32) : Vec F S1024x1024 .f32 :=
  if t.val % 9 = 0 then k0_pay3 (k0_pay9 lo up) else k0_pay16

/-- The proof data on core `c`: the arrays as the region finds them; after the body at point `t` each input's buffer at
    its block, each row output's at the body's pointwise function of the row-block's input entries, each matrix output's
    at its tile; the invariant the scoped rest and the random-number generator's register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay10 (xBlk m c t)
    | ⟨4, _⟩ => k0_pay11 (loBlk m c t) (upBlk m c t)
    | ⟨5, _⟩ => k0_pay12 (loBlk m c t) (upBlk m c t)
    | ⟨6, _⟩ => k0_pay13 (F := F)
    | ⟨7, _⟩ => k0_pay14 (loBlk m c t) (upBlk m c t)
    | ⟨8, _⟩ => tileLo t (upBlk m c t)
    | ⟨9, _⟩ => tileUp t (loBlk m c t) (upBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay10 (xBlk m c t) := by dsimp only [dats]
theorem after_4 (c : Dev nD) (t : Fin cfg0.N) : (dats m 0 c).after 4 t = k0_pay11 (loBlk m c t) (upBlk m c t) := by dsimp only [dats]
theorem after_5 (c : Dev nD) (t : Fin cfg0.N) : (dats m 0 c).after 5 t = k0_pay12 (loBlk m c t) (upBlk m c t) := by dsimp only [dats]
theorem after_6 (c : Dev nD) (t : Fin cfg0.N) : (dats m 0 c).after 6 t = k0_pay13 (F := F) := by dsimp only [dats]
theorem after_7 (c : Dev nD) (t : Fin cfg0.N) : (dats m 0 c).after 7 t = k0_pay14 (loBlk m c t) (upBlk m c t) := by dsimp only [dats]
theorem after_8 (c : Dev nD) (t : Fin cfg0.N) : (dats m 0 c).after 8 t = tileLo t (upBlk m c t) := by dsimp only [dats]
theorem after_9 (c : Dev nD) (t : Fin cfg0.N) : (dats m 0 c).after 9 t = tileUp t (loBlk m c t) (upBlk m c t) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The input windows' block index on the long axis is the row-block. -/
theorem index_in : ∀ t : Fin cfg0.N, win0_0.index t (0 : Fin 2) = 0 ∧ win0_0.index t (1 : Fin 2) = t.val / 8
    ∧ win0_1.index t (0 : Fin 2) = 0 ∧ win0_1.index t (1 : Fin 2) = t.val / 8
    ∧ win0_2.index t (0 : Fin 2) = 0 ∧ win0_2.index t (1 : Fin 2) = t.val / 8 :=
  (by decide +kernel : ∀ t : Fin grid0.N, _)

/-- An input window's block at point `t` is the row-block of its array. -/
theorem iblk_0 (c : Dev nD) (t : Fin cfg0.N) : (iblk m c 0 t : Vec F S1x1024 .f32) = xBlk m c t := by
  obtain ⟨e0, e1, -, -, -, -⟩ := index_in t
  funext y
  show V m c main_arg0 (((cfg0.win 0).blk t).view.emb y) = V m c main_arg0 _
  refine congrArg (V m c main_arg0) ?_
  funext a; apply Fin.ext
  match a with
  | ⟨0, _⟩ => show win0_0.index t (0 : Fin 2) * 1 + 1 * (y 0).val = 0; have hj : (y 0).val < 1 := (y 0).isLt; omega
  | ⟨1, _⟩ => show win0_0.index t (1 : Fin 2) * 1024 + 1 * (y 1).val = 1024 * (t.val / 8) + (y 1).val; omega
theorem iblk_1 (c : Dev nD) (t : Fin cfg0.N) : (iblk m c 1 t : Vec F S1x1024 .f32) = loBlk m c t := by
  obtain ⟨-, -, e0, e1, -, -⟩ := index_in t
  funext y
  show V m c main_arg1 (((cfg0.win 1).blk t).view.emb y) = V m c main_arg1 _
  refine congrArg (V m c main_arg1) ?_
  funext a; apply Fin.ext
  match a with
  | ⟨0, _⟩ => show win0_1.index t (0 : Fin 2) * 1 + 1 * (y 0).val = 0; have hj : (y 0).val < 1 := (y 0).isLt; omega
  | ⟨1, _⟩ => show win0_1.index t (1 : Fin 2) * 1024 + 1 * (y 1).val = 1024 * (t.val / 8) + (y 1).val; omega
theorem iblk_2 (c : Dev nD) (t : Fin cfg0.N) : (iblk m c 2 t : Vec F S1x1024 .f32) = upBlk m c t := by
  obtain ⟨-, -, -, -, e0, e1⟩ := index_in t
  funext y
  show V m c main_arg2 (((cfg0.win 2).blk t).view.emb y) = V m c main_arg2 _
  refine congrArg (V m c main_arg2) ?_
  funext a; apply Fin.ext
  match a with
  | ⟨0, _⟩ => show win0_2.index t (0 : Fin 2) * 1 + 1 * (y 0).val = 0; have hj : (y 0).val < 1 := (y 0).isLt; omega
  | ⟨1, _⟩ => show win0_2.index t (1 : Fin 2) * 1024 + 1 * (y 1).val = 1024 * (t.val / 8) + (y 1).val; omega

/-- Within a row-block the row-block does not change from a point to the next. -/
theorem blkRow_pred (t : Fin cfg0.N) (h : t.val % 8 ≠ 0) :
    blkRow ⟨t.val - 1, Nat.lt_of_le_of_lt (Nat.sub_le _ _) t.isLt⟩ = blkRow t := by
  apply Fin.ext; show (t.val - 1) / 8 = t.val / 8; omega

/-- A ROW OUTPUT CARRIED THROUGH ITS IDLE POINTS. For an output window that is uncut, live exactly at the first point of
    each row-block, written back only at the last, and whose stated contents do not change inside a row-block: at every
    idle point its staging buffer holds the stated contents — by induction along the row-block, the first idle point
    finding what the live point left, each later one what the one before found. -/
theorem before_carried {c : Dev nD} (dat : Dat τ (Elt F) Unit ℕ (UR sig nD τ) ℕ cfg0 c) (w : Fin cfg0.W)
    (hw : (cfg0.win w).isOut = true)
    (hidle : ∀ t : Fin cfg0.N, cfg0.idle w (grid0.coords t) = !decide (t.val % 8 = 0))
    (hflush : ∀ t : Fin cfg0.N, (cfg0.win w).flush t = true ↔ t.val % 8 = 7)
    (hclip : ∀ (i : grid0.Coords) a, (cfg0.win w).clip i a = none)
    (hsame : ∀ t : Fin cfg0.N, t.val % 8 ≠ 0 → dat.after w ⟨t.val - 1, Nat.lt_of_le_of_lt (Nat.sub_le _ _) t.isLt⟩ = dat.after w t)
    (d) : ∀ (n : ℕ) (hn : n < cfg0.N), n % 8 ≠ 0 → dat.before w ⟨n, hn⟩ d = dat.after w ⟨n, hn⟩ := by
  intro n
  induction n with
  | zero => intro hn h; exact absurd rfl h
  | succ k ih =>
    intro hn h
    have hk : k < cfg0.N := Nat.lt_of_succ_lt hn
    have hfl : (cfg0.win w).flush ⟨k, hk⟩ = false := Bool.eq_false_iff.mpr fun hf => by
      have := (hflush ⟨k, hk⟩).mp hf; dsimp only at this; omega
    rw [dat.before_of_pos w ⟨k + 1, hn⟩ (Nat.succ_ne_zero k) ((cfg0.win w).fetch_out hw _)]
    show (if (cfg0.win w).flush ⟨k, hk⟩ = true then d else dat.left w ⟨k, hk⟩ d) = _
    rw [hfl, if_neg Bool.false_ne_true]
    unfold Dat.left
    rw [hidle ⟨k, hk⟩]
    by_cases h0 : k % 8 = 0
    · rw [show (!decide ((⟨k, hk⟩ : Fin cfg0.N).val % 8 = 0)) = false from by simp [h0]]
      dsimp only
      unfold Dat.kept
      rw [Pipeline.fill_of_clip_none w _ (hclip _) d (dat.after w ⟨k, hk⟩), Window.fill_cut]
      exact hsame ⟨k + 1, hn⟩ h
    · rw [show (!decide ((⟨k, hk⟩ : Fin cfg0.N).val % 8 = 0)) = true from by simp [h0]]
      dsimp only
      rw [ih hk h0]
      exact hsame ⟨k + 1, hn⟩ h

end Cert.Kernel.Body

end
-- ==== Proof.K.Cases.lean ====
/-
  The four cases of the body, each run to the proof data's contents: what the stores leave, read back, is what the proof
  data states for the point — the row outputs the body's pointwise functions of the row-block's input entries, the tiles
  the diagonal segment on the diagonal of blocks and zero off it.
-/
import proofs.«158999_j2800318677430_2_alg».proof.Proof.K.Pieces
import proofs.«158999_j2800318677430_2_alg».proof.Proof.K.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- The body at a point of the first column-block, on the diagonal of blocks: from the inputs' buffers at their blocks and the
    buffers it stores into at anything, it runs to the continuation holding the inputs' buffers as they were and each stored
    buffer at the proof data's contents for the point. -/
theorem caseA (c : Dev nD) (t : Fin cfg0.N) (h0 : t.val % 8 = 0) (h1 : t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms3 t) fullShare d)
        ∗ (∃ d, owns (c : Thread nD τ) (ms4 t) fullShare d)
        ∗ (∃ d, owns (c : Thread nD τ) (ms5 t) fullShare d)
        ∗ (∃ d, owns (c : Thread nD τ) (ms6 t) fullShare d)
        ∗ (∃ d, owns (c : Thread nD τ) (ms7 t) fullShare d)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms3 t) fullShare ((dats m 0 c).after 3 t)
          ∗ owns (c : Thread nD τ) (ms4 t) fullShare ((dats m 0 c).after 4 t)
          ∗ owns (c : Thread nD τ) (ms5 t) fullShare ((dats m 0 c).after 5 t)
          ∗ owns (c : Thread nD τ) (ms6 t) fullShare ((dats m 0 c).after 6 t)
          ∗ owns (c : Thread nD τ) (ms7 t) fullShare ((dats m 0 c).after 7 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e3 : ∀ f, (ms3 t).view.read (Elt F) ((ms3 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).1) = (dats m 0 c).after 3 t :=
    fun f => (runA_w3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms3 t).view f).trans
      (show k0_pay10 (iblk m c 0 t) = _ from by rw [after_3, iblk_0])
  have e4 : ∀ f, (ms4 t).view.read (Elt F) ((ms4 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.1) = (dats m 0 c).after 4 t :=
    fun f => (runA_w4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms4 t).view f).trans
      (show k0_pay11 (iblk m c 1 t) (iblk m c 2 t) = _ from by rw [after_4, iblk_1, iblk_2])
  have e5 : ∀ f, (ms5 t).view.read (Elt F) ((ms5 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.1) = (dats m 0 c).after 5 t :=
    fun f => (runA_w5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms5 t).view f).trans
      (show k0_pay12 (iblk m c 1 t) (iblk m c 2 t) = _ from by rw [after_5, iblk_1, iblk_2])
  have e6 : ∀ f, (ms6 t).view.read (Elt F) ((ms6 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.1) = (dats m 0 c).after 6 t :=
    fun f => (runA_w6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms6 t).view f).trans
      (show k0_pay13 (F := F) = _ from by rw [after_6])
  have e7 : ∀ f, (ms7 t).view.read (Elt F) ((ms7 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.1) = (dats m 0 c).after 7 t :=
    fun f => (runA_w7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms7 t).view f).trans
      (show k0_pay14 (iblk m c 1 t) (iblk m c 2 t) = _ from by rw [after_7, iblk_1, iblk_2])
  have e8 : ∀ f, (ms8 t).view.read (Elt F) ((ms8 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.2.1) = (dats m 0 c).after 8 t :=
    fun f => (runA_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms8 t).view f).trans
      (show k0_pay2 (k0_pay8 (iblk m c 2 t)) = _ from by rw [after_8, iblk_2]; unfold tileLo; rw [if_pos h1])
  have e9 : ∀ f, (ms9 t).view.read (Elt F) ((ms9 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.2.2.1) = (dats m 0 c).after 9 t :=
    fun f => (runA_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms9 t).view f).trans
      (show k0_pay3 (k0_pay9 (iblk m c 1 t) (iblk m c 2 t)) = _ from by rw [after_9, iblk_1, iblk_2]; unfold tileUp; rw [if_pos h1])
  iintro ⟨H0, H1, H2, H3, H4, H5, H6, H7, H8, H9, Hk⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, ⟨%f3, H3⟩, ⟨%f4, H4⟩, ⟨%f5, H5⟩, ⟨%f6, H6⟩, ⟨%f7, H7⟩, ⟨%f8, H8⟩, ⟨%f9, H9⟩⟩
  iapply Hk
  isplitl [H0]; · iexact H0
  isplitl [H1]; · iexact H1
  isplitl [H2]; · iexact H2
  isplitl [H3]
  · unfold owns; iexists _; isplitr; swap; · iexact H3
    ipureintro; exact e3 _
  isplitl [H4]
  · unfold owns; iexists _; isplitr; swap; · iexact H4
    ipureintro; exact e4 _
  isplitl [H5]
  · unfold owns; iexists _; isplitr; swap; · iexact H5
    ipureintro; exact e5 _
  isplitl [H6]
  · unfold owns; iexists _; isplitr; swap; · iexact H6
    ipureintro; exact e6 _
  isplitl [H7]
  · unfold owns; iexists _; isplitr; swap; · iexact H7
    ipureintro; exact e7 _
  isplitl [H8]
  · unfold owns; iexists _; isplitr; swap; · iexact H8
    ipureintro; exact e8 _
  unfold owns; iexists _; isplitr; swap; · iexact H9
  ipureintro; exact e9 _

set_option maxHeartbeats 1600000 in
/-- The body at a point of the first column-block, off the diagonal of blocks: from the inputs' buffers at their blocks and the
    buffers it stores into at anything, it runs to the continuation holding the inputs' buffers as they were and each stored
    buffer at the proof data's contents for the point. -/
theorem caseC (c : Dev nD) (t : Fin cfg0.N) (h0 : t.val % 8 = 0) (h1 : ¬t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms3 t) fullShare d)
        ∗ (∃ d, owns (c : Thread nD τ) (ms4 t) fullShare d)
        ∗ (∃ d, owns (c : Thread nD τ) (ms5 t) fullShare d)
        ∗ (∃ d, owns (c : Thread nD τ) (ms6 t) fullShare d)
        ∗ (∃ d, owns (c : Thread nD τ) (ms7 t) fullShare d)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms3 t) fullShare ((dats m 0 c).after 3 t)
          ∗ owns (c : Thread nD τ) (ms4 t) fullShare ((dats m 0 c).after 4 t)
          ∗ owns (c : Thread nD τ) (ms5 t) fullShare ((dats m 0 c).after 5 t)
          ∗ owns (c : Thread nD τ) (ms6 t) fullShare ((dats m 0 c).after 6 t)
          ∗ owns (c : Thread nD τ) (ms7 t) fullShare ((dats m 0 c).after 7 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e3 : ∀ f, (ms3 t).view.read (Elt F) ((ms3 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).1) = (dats m 0 c).after 3 t :=
    fun f => (runC_w3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms3 t).view f).trans
      (show k0_pay10 (iblk m c 0 t) = _ from by rw [after_3, iblk_0])
  have e4 : ∀ f, (ms4 t).view.read (Elt F) ((ms4 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.1) = (dats m 0 c).after 4 t :=
    fun f => (runC_w4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms4 t).view f).trans
      (show k0_pay11 (iblk m c 1 t) (iblk m c 2 t) = _ from by rw [after_4, iblk_1, iblk_2])
  have e5 : ∀ f, (ms5 t).view.read (Elt F) ((ms5 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.1) = (dats m 0 c).after 5 t :=
    fun f => (runC_w5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms5 t).view f).trans
      (show k0_pay12 (iblk m c 1 t) (iblk m c 2 t) = _ from by rw [after_5, iblk_1, iblk_2])
  have e6 : ∀ f, (ms6 t).view.read (Elt F) ((ms6 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.1) = (dats m 0 c).after 6 t :=
    fun f => (runC_w6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms6 t).view f).trans
      (show k0_pay13 (F := F) = _ from by rw [after_6])
  have e7 : ∀ f, (ms7 t).view.read (Elt F) ((ms7 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.1) = (dats m 0 c).after 7 t :=
    fun f => (runC_w7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms7 t).view f).trans
      (show k0_pay14 (iblk m c 1 t) (iblk m c 2 t) = _ from by rw [after_7, iblk_1, iblk_2])
  have e8 : ∀ f, (ms8 t).view.read (Elt F) ((ms8 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.2.1) = (dats m 0 c).after 8 t :=
    fun f => (runC_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms8 t).view f).trans
      (show k0_pay15 (F := F) = _ from by rw [after_8]; unfold tileLo; rw [if_neg h1])
  have e9 : ∀ f, (ms9 t).view.read (Elt F) ((ms9 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.2.2.1) = (dats m 0 c).after 9 t :=
    fun f => (runC_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms9 t).view f).trans
      (show k0_pay16 (F := F) = _ from by rw [after_9]; unfold tileUp; rw [if_neg h1])
  iintro ⟨H0, H1, H2, H3, H4, H5, H6, H7, H8, H9, Hk⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, ⟨%f3, H3⟩, ⟨%f4, H4⟩, ⟨%f5, H5⟩, ⟨%f6, H6⟩, ⟨%f7, H7⟩, ⟨%f8, H8⟩, ⟨%f9, H9⟩⟩
  iapply Hk
  isplitl [H0]; · iexact H0
  isplitl [H1]; · iexact H1
  isplitl [H2]; · iexact H2
  isplitl [H3]
  · unfold owns; iexists _; isplitr; swap; · iexact H3
    ipureintro; exact e3 _
  isplitl [H4]
  · unfold owns; iexists _; isplitr; swap; · iexact H4
    ipureintro; exact e4 _
  isplitl [H5]
  · unfold owns; iexists _; isplitr; swap; · iexact H5
    ipureintro; exact e5 _
  isplitl [H6]
  · unfold owns; iexists _; isplitr; swap; · iexact H6
    ipureintro; exact e6 _
  isplitl [H7]
  · unfold owns; iexists _; isplitr; swap; · iexact H7
    ipureintro; exact e7 _
  isplitl [H8]
  · unfold owns; iexists _; isplitr; swap; · iexact H8
    ipureintro; exact e8 _
  unfold owns; iexists _; isplitr; swap; · iexact H9
  ipureintro; exact e9 _

set_option maxHeartbeats 1600000 in
/-- The body at a point off the first column-block, on the diagonal of blocks: from the inputs' buffers at their blocks and the
    buffers it stores into at anything, it runs to the continuation holding the inputs' buffers as they were and each stored
    buffer at the proof data's contents for the point. -/
theorem caseD (c : Dev nD) (t : Fin cfg0.N) (h0 : ¬t.val % 8 = 0) (h1 : t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e8 : ∀ f, (ms8 t).view.read (Elt F) ((ms8 t).view.writes (Elt F) f (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t)).1) = (dats m 0 c).after 8 t :=
    fun f => (runD_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t) (ms8 t).view f).trans
      (show k0_pay2 (k0_pay8 (iblk m c 2 t)) = _ from by rw [after_8, iblk_2]; unfold tileLo; rw [if_pos h1])
  have e9 : ∀ f, (ms9 t).view.read (Elt F) ((ms9 t).view.writes (Elt F) f (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t)).2.1) = (dats m 0 c).after 9 t :=
    fun f => (runD_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t) (ms9 t).view f).trans
      (show k0_pay3 (k0_pay9 (iblk m c 1 t) (iblk m c 2 t)) = _ from by rw [after_9, iblk_1, iblk_2]; unfold tileUp; rw [if_pos h1])
  iintro ⟨H0, H1, H2, H8, H9, Hk⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t)).2.2 E K)
  isplitl [H0]; · iexact H0
  isplitl [H1]; · iexact H1
  isplitl [H2]; · iexact H2
  isplitl [H8]; · iexact H8
  isplitl [H9]; · iexact H9
  iintro ⟨H0, H1, H2, ⟨%f8, H8⟩, ⟨%f9, H9⟩⟩
  iapply Hk
  isplitl [H0]; · iexact H0
  isplitl [H1]; · iexact H1
  isplitl [H2]; · iexact H2
  isplitl [H8]
  · unfold owns; iexists _; isplitr; swap; · iexact H8
    ipureintro; exact e8 _
  unfold owns; iexists _; isplitr; swap; · iexact H9
  ipureintro; exact e9 _

set_option maxHeartbeats 1600000 in
/-- The body at a point off the first column-block, off the diagonal of blocks: from the inputs' buffers at their blocks and the
    buffers it stores into at anything, it runs to the continuation holding the inputs' buffers as they were and each stored
    buffer at the proof data's contents for the point. -/
theorem caseB (c : Dev nD) (t : Fin cfg0.N) (h0 : ¬t.val % 8 = 0) (h1 : ¬t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e8 : ∀ f, (ms8 t).view.read (Elt F) ((ms8 t).view.writes (Elt F) f (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t)).1) = (dats m 0 c).after 8 t :=
    fun f => (runB_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t) (ms8 t).view f).trans
      (show k0_pay15 (F := F) = _ from by rw [after_8]; unfold tileLo; rw [if_neg h1])
  have e9 : ∀ f, (ms9 t).view.read (Elt F) ((ms9 t).view.writes (Elt F) f (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t)).2.1) = (dats m 0 c).after 9 t :=
    fun f => (runB_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t) (ms9 t).view f).trans
      (show k0_pay16 (F := F) = _ from by rw [after_9]; unfold tileUp; rw [if_neg h1])
  iintro ⟨H0, H1, H2, H8, H9, Hk⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t)).2.2 E K)
  isplitl [H0]; · iexact H0
  isplitl [H1]; · iexact H1
  isplitl [H2]; · iexact H2
  isplitl [H8]; · iexact H8
  isplitl [H9]; · iexact H9
  iintro ⟨H0, H1, H2, ⟨%f8, H8⟩, ⟨%f9, H9⟩⟩
  iapply Hk
  isplitl [H0]; · iexact H0
  isplitl [H1]; · iexact H1
  isplitl [H2]; · iexact H2
  isplitl [H8]
  · unfold owns; iexists _; isplitr; swap; · iexact H8
    ipureintro; exact e8 _
  unfold owns; iexists _; isplitr; swap; · iexact H9
  ipureintro; exact e9 _

end Cert.Kernel.Body

end
-- ==== Proof.K.Body.lean ====
/-
  The body obligation of the pipeline and its run. At a point of the first column-block the body stores all seven
  outputs; elsewhere it stores only the two matrix tiles and the five row outputs' buffers pass through untouched — they
  still hold what the first point of the row-block stored, which is what the last point of the row-block writes back.
-/
import proofs.«158999_j2800318677430_2_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem carried_3 (c : Dev nD) (t : Fin cfg0.N) (h : t.val % 8 ≠ 0) (d) : (dats m 0 c).before 3 t d = (dats m 0 c).after 3 t :=
  before_carried (dats m 0 c) 3 rfl idle_3 flush0_3 (fun _ _ => rfl) (fun s hs => by rw [after_3, after_3]; show k0_pay10 (rowBlk _ (blkRow _)) = k0_pay10 (rowBlk _ (blkRow s)); rw [blkRow_pred s hs]) d t.val t.isLt h
theorem carried_4 (c : Dev nD) (t : Fin cfg0.N) (h : t.val % 8 ≠ 0) (d) : (dats m 0 c).before 4 t d = (dats m 0 c).after 4 t :=
  before_carried (dats m 0 c) 4 rfl idle_4 flush0_4 (fun _ _ => rfl) (fun s hs => by rw [after_4, after_4]; show k0_pay11 (rowBlk _ (blkRow _)) (rowBlk _ (blkRow _)) = k0_pay11 (rowBlk _ (blkRow s)) (rowBlk _ (blkRow s)); rw [blkRow_pred s hs]) d t.val t.isLt h
theorem carried_5 (c : Dev nD) (t : Fin cfg0.N) (h : t.val % 8 ≠ 0) (d) : (dats m 0 c).before 5 t d = (dats m 0 c).after 5 t :=
  before_carried (dats m 0 c) 5 rfl idle_5 flush0_5 (fun _ _ => rfl) (fun s hs => by rw [after_5, after_5]; show k0_pay12 (rowBlk _ (blkRow _)) (rowBlk _ (blkRow _)) = k0_pay12 (rowBlk _ (blkRow s)) (rowBlk _ (blkRow s)); rw [blkRow_pred s hs]) d t.val t.isLt h
theorem carried_6 (c : Dev nD) (t : Fin cfg0.N) (h : t.val % 8 ≠ 0) (d) : (dats m 0 c).before 6 t d = (dats m 0 c).after 6 t :=
  before_carried (dats m 0 c) 6 rfl idle_6 flush0_6 (fun _ _ => rfl) (fun s hs => by rw [after_6, after_6]) d t.val t.isLt h
theorem carried_7 (c : Dev nD) (t : Fin cfg0.N) (h : t.val % 8 ≠ 0) (d) : (dats m 0 c).before 7 t d = (dats m 0 c).after 7 t :=
  before_carried (dats m 0 c) 7 rfl idle_7 flush0_7 (fun _ _ => rfl) (fun s hs => by rw [after_7, after_7]; show k0_pay14 (rowBlk _ (blkRow _)) (rowBlk _ (blkRow _)) = k0_pay14 (rowBlk _ (blkRow s)) (rowBlk _ (blkRow s)); rw [blkRow_pred s hs]) d t.val t.isLt h

/-- At a point idle for an output window, the buffer handed to the body is what the obligation asks back: as found
    when the point does not write back, and the stated contents — equal to what was found — when it does. -/
theorem carried_post {c : Dev nD} (dat : Dat τ (Elt F) Unit ℕ (UR sig nD τ) ℕ cfg0 c) (w : Fin cfg0.W) (t : Fin cfg0.N)
    (hi : cfg0.idle w (grid0.coords t) = true) (hb : ∀ d, dat.before w t d = dat.after w t) (d) :
    owns (c : Thread nD τ) ((cfg0.win w).stage (cfg0.slots t w)) fullShare (dat.before w t d) ⊢ (dat.leavesExact w t : sProp 𝕄) := by
  unfold Dat.leavesExact
  rw [hi]
  dsimp only
  split
  · iintro H; iexists d; iexact H
  · exact Entails.of_eq (by rw [hb d])

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point, by cases on the column-block (is it 0?) and on the diagonal (row-block = column-block?). -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live_0 t]]
  rw [show (dats m 0 c).leavesExact 1 t = owns (c : Thread nD τ) (ms1 t) fullShare ((dats m 0 c).after 1 t) from by
    unfold Dat.leavesExact; rw [live_1 t]]
  rw [show (dats m 0 c).leavesExact 2 t = owns (c : Thread nD τ) (ms2 t) fullShare ((dats m 0 c).after 2 t) from by
    unfold Dat.leavesExact; rw [live_2 t]]
  rw [show (dats m 0 c).leavesExact 8 t = owns (c : Thread nD τ) (ms8 t) fullShare ((dats m 0 c).after 8 t) from by
    unfold Dat.leavesExact; rw [live_8 t]]
  rw [show (dats m 0 c).leavesExact 9 t = owns (c : Thread nD τ) (ms9 t) fullShare ((dats m 0 c).after 9 t) from by
    unfold Dat.leavesExact; rw [live_9 t]]
  rw [after_0, after_1, after_2]
  by_cases h0 : t.val % 8 = 0
  · have hf : (!decide (t.val % 8 = 0)) = false := by simp [h0]
    rw [show (dats m 0 c).leavesExact 3 t = owns (c : Thread nD τ) (ms3 t) fullShare ((dats m 0 c).after 3 t) from by
      unfold Dat.leavesExact; rw [idle_3 t, hf]]
    rw [show (dats m 0 c).leavesExact 4 t = owns (c : Thread nD τ) (ms4 t) fullShare ((dats m 0 c).after 4 t) from by
      unfold Dat.leavesExact; rw [idle_4 t, hf]]
    rw [show (dats m 0 c).leavesExact 5 t = owns (c : Thread nD τ) (ms5 t) fullShare ((dats m 0 c).after 5 t) from by
      unfold Dat.leavesExact; rw [idle_5 t, hf]]
    rw [show (dats m 0 c).leavesExact 6 t = owns (c : Thread nD τ) (ms6 t) fullShare ((dats m 0 c).after 6 t) from by
      unfold Dat.leavesExact; rw [idle_6 t, hf]]
    rw [show (dats m 0 c).leavesExact 7 t = owns (c : Thread nD τ) (ms7 t) fullShare ((dats m 0 c).after 7 t) from by
      unfold Dat.leavesExact; rw [idle_7 t, hf]]
    by_cases h1 : t.val % 9 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseA m c t h0 h1 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseC m c t h0 h1 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases h1 : t.val % 9 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseD m c t h0 h1 Set.univ _)
      isplitl [H0]; · iexact H0
      isplitl [H1]; · iexact H1
      isplitl [H2]; · iexact H2
      isplitl [H8]; · iexists _; iexact H8
      isplitl [H9]; · iexists _; iexact H9
      iintro ⟨H0, H1, H2, H8, H9⟩
      isplitl [HΦ]; · iexact HΦ
      isplitl [Ho]; · iexact Ho
      isplitl [H0]; · iexact H0
      isplitl [H1]; · iexact H1
      isplitl [H2]; · iexact H2
      isplitl [H3]; · iapply (carried_post (dats m 0 c) 3 t (by rw [idle_3 t]; simp [h0]) (fun d => carried_3 m c t h0 d) d3); iexact H3
      isplitl [H4]; · iapply (carried_post (dats m 0 c) 4 t (by rw [idle_4 t]; simp [h0]) (fun d => carried_4 m c t h0 d) d4); iexact H4
      isplitl [H5]; · iapply (carried_post (dats m 0 c) 5 t (by rw [idle_5 t]; simp [h0]) (fun d => carried_5 m c t h0 d) d5); iexact H5
      isplitl [H6]; · iapply (carried_post (dats m 0 c) 6 t (by rw [idle_6 t]; simp [h0]) (fun d => carried_6 m c t h0 d) d6); iexact H6
      isplitl [H7]; · iapply (carried_post (dats m 0 c) 7 t (by rw [idle_7 t]; simp [h0]) (fun d => carried_7 m c t h0 d) d7); iexact H7
      isplitl [H8]; · iexact H8
      iexact H9
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseB m c t h0 h1 Set.univ _)
      isplitl [H0]; · iexact H0
      isplitl [H1]; · iexact H1
      isplitl [H2]; · iexact H2
      isplitl [H8]; · iexists _; iexact H8
      isplitl [H9]; · iexists _; iexact H9
      iintro ⟨H0, H1, H2, H8, H9⟩
      isplitl [HΦ]; · iexact HΦ
      isplitl [Ho]; · iexact Ho
      isplitl [H0]; · iexact H0
      isplitl [H1]; · iexact H1
      isplitl [H2]; · iexact H2
      isplitl [H3]; · iapply (carried_post (dats m 0 c) 3 t (by rw [idle_3 t]; simp [h0]) (fun d => carried_3 m c t h0 d) d3); iexact H3
      isplitl [H4]; · iapply (carried_post (dats m 0 c) 4 t (by rw [idle_4 t]; simp [h0]) (fun d => carried_4 m c t h0 d) d4); iexact H4
      isplitl [H5]; · iapply (carried_post (dats m 0 c) 5 t (by rw [idle_5 t]; simp [h0]) (fun d => carried_5 m c t h0 d) d5); iexact H5
      isplitl [H6]; · iapply (carried_post (dats m 0 c) 6 t (by rw [idle_6 t]; simp [h0]) (fun d => carried_6 m c t h0 d) d6); iexact H6
      isplitl [H7]; · iapply (carried_post (dats m 0 c) 7 t (by rw [idle_7 t]; simp [h0]) (fun d => carried_7 m c t h0 d) d7); iexact H7
      isplitl [H8]; · iexact H8
      iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    library computes from the proof data — each output array overwritten, block by block, by what the points wrote back —
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends with the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Sched.lean ====
/-
  The grid's schedule in closed form. The grid is 8 × 8, point `t` being row-block `t / 8` and column-block `t % 8`.
  The five row outputs are stored only at the first column-block of each row-block (`t % 8 = 0`) and are idle at the
  other seven; the two matrix tiles get their diagonal segment only where row-block = column-block (`t % 9 = 0`).
-/
import proofs.«158999_j2800318677430_2_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first conditional: the column-block is 0. -/
abbrev condCol0 (i : grid0.Coords) : Prop := k0_cond1 i = 1#1
theorem condCol0_iff : ∀ t : Fin cfg0.N, condCol0 (grid0.coords t) ↔ t.val % 8 = 0 :=
  (by decide +kernel : ∀ t : Fin grid0.N, condCol0 (grid0.coords t) ↔ t.val % 8 = 0)

/-- The body's second conditional: row-block = column-block. -/
abbrev condDiag (i : grid0.Coords) : Prop :=
  (Scalar.cmpi .ne (Scalar.extui (Scalar.cmpi .eq (BitVec.ofNat 32 (i 0).val) (BitVec.ofNat 32 (i 1).val))) 0#32) = 1#1
theorem condDiag_iff : ∀ t : Fin cfg0.N, condDiag (grid0.coords t) ↔ t.val % 9 = 0 :=
  (by decide +kernel : ∀ t : Fin grid0.N, condDiag (grid0.coords t) ↔ t.val % 9 = 0)

/-- The inputs and the two matrix outputs are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel

/-- The row outputs are idle exactly off the first column-block. -/
theorem idle_3 : ∀ t : Fin cfg0.N, cfg0.idle 3 (grid0.coords t) = !decide (t.val % 8 = 0) :=
  (by decide +kernel : ∀ t : Fin grid0.N, cfg0.idle 3 (grid0.coords t) = !decide (t.val % 8 = 0))
theorem idle_4 : ∀ t : Fin cfg0.N, cfg0.idle 4 (grid0.coords t) = !decide (t.val % 8 = 0) :=
  (by decide +kernel : ∀ t : Fin grid0.N, cfg0.idle 4 (grid0.coords t) = !decide (t.val % 8 = 0))
theorem idle_5 : ∀ t : Fin cfg0.N, cfg0.idle 5 (grid0.coords t) = !decide (t.val % 8 = 0) :=
  (by decide +kernel : ∀ t : Fin grid0.N, cfg0.idle 5 (grid0.coords t) = !decide (t.val % 8 = 0))
theorem idle_6 : ∀ t : Fin cfg0.N, cfg0.idle 6 (grid0.coords t) = !decide (t.val % 8 = 0) :=
  (by decide +kernel : ∀ t : Fin grid0.N, cfg0.idle 6 (grid0.coords t) = !decide (t.val % 8 = 0))
theorem idle_7 : ∀ t : Fin cfg0.N, cfg0.idle 7 (grid0.coords t) = !decide (t.val % 8 = 0) :=
  (by decide +kernel : ∀ t : Fin grid0.N, cfg0.idle 7 (grid0.coords t) = !decide (t.val % 8 = 0))

/-- Each window's current staging memref at point `t`, as the pipeline passes it to the body, and its wholeness. -/
abbrev ms0 (t : Fin cfg0.N) : Memref sig .tc .vmem S1x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1024 .f32 := win0_9.stage (cfg0.slots t 9)
abbrev hs9 (t : Fin cfg0.N) : (ms9 t).IsWhole := hstage0_9 ((cfg0.slots t 9).cast nbuf0_9)

/-- One staging buffer of each output window, through which its contents are stated. -/
abbrev VO3 : View sig .tc .vmem S1x1024 .f32 := (Memref.whole cc0_stg3_0 : Memref sig .tc .vmem S1x1024 .f32).view
abbrev VO4 : View sig .tc .vmem S1x1024 .f32 := (Memref.whole cc0_stg4_0 : Memref sig .tc .vmem S1x1024 .f32).view
abbrev VO5 : View sig .tc .vmem S1x1024 .f32 := (Memref.whole cc0_stg5_0 : Memref sig .tc .vmem S1x1024 .f32).view
abbrev VO6 : View sig .tc .vmem S1x1024 .f32 := (Memref.whole cc0_stg6_0 : Memref sig .tc .vmem S1x1024 .f32).view
abbrev VO7 : View sig .tc .vmem S1x1024 .f32 := (Memref.whole cc0_stg7_0 : Memref sig .tc .vmem S1x1024 .f32).view
abbrev VO8 : View sig .tc .vmem S1024x1024 .f32 := (Memref.whole cc0_stg8_0 : Memref sig .tc .vmem S1024x1024 .f32).view
abbrev VO9 : View sig .tc .vmem S1024x1024 .f32 := (Memref.whole cc0_stg9_0 : Memref sig .tc .vmem S1024x1024 .f32).view

end Cert.KernelIdeal.Body

end
-- ==== Proof.KI.RunA.lean ====
/-
  The kernel body run symbolically at a point whose column-block is 0 and whose row-block equals its column-block.
-/
import proofs.«158999_j2800318677430_2_alg».proof.Proof.KI.Sched
import proofs.«158999_j2800318677430_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of the first column-block, on the diagonal of blocks: on whole staging memrefs, the three inputs at
    their contents, every output it stores into at anything, the body runs and hands the inputs back as they
    were and each stored output with its pieces written, last store first. The pieces are the witness the run finds. -/
noncomputable def runA (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32) :
    Σ' (L3 : List (View.Piece (Elt F) S1x1024 .f32)), Σ' (L4 : List (View.Piece (Elt F) S1x1024 .f32)), Σ' (L5 : List (View.Piece (Elt F) S1x1024 .f32)), Σ' (L6 : List (View.Piece (Elt F) S1x1024 .f32)), Σ' (L7 : List (View.Piece (Elt F) S1x1024 .f32)), Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Body

end
-- ==== Proof.KI.RunB.lean ====
/-
  The kernel body run symbolically at a point whose column-block is not 0 and whose row-block differs from its column-block.
-/
import proofs.«158999_j2800318677430_2_alg».proof.Proof.KI.Sched
import proofs.«158999_j2800318677430_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point off the first column-block, off the diagonal of blocks: on whole staging memrefs, the three inputs at
    their contents (the five row outputs are not touched and are left out), every output it stores into at anything, the body runs and hands the inputs back as they
    were and each stored output with its pieces written, last store first. The pieces are the witness the run finds. -/
noncomputable def runB (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : ¬condDiag i)
    (x0 : Vec F S1x1024 .f32) (x1 : Vec F S1x1024 .f32) (x2 : Vec F S1x1024 .f32) :
    Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    iexists _; iexact H9

end Cert.KernelIdeal.Body

end
-- ==== Proof.KI.RunC.lean ====
/-
  The kernel body run symbolically at a point whose column-block is 0 and whose row-block differs from its column-block.
-/
import proofs.«158999_j2800318677430_2_alg».proof.Proof.KI.Sched
import proofs.«158999_j2800318677430_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of the first column-block, off the diagonal of blocks: on whole staging memrefs, the three inputs at
    their contents, every output it stores into at anything, the body runs and hands the inputs back as they
    were and each stored output with its pieces written, last store first. The pieces are the witness the run finds. -/
noncomputable def runC (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32) :
    Σ' (L3 : List (View.Piece (Elt F) S1x1024 .f32)), Σ' (L4 : List (View.Piece (Elt F) S1x1024 .f32)), Σ' (L5 : List (View.Piece (Elt F) S1x1024 .f32)), Σ' (L6 : List (View.Piece (Elt F) S1x1024 .f32)), Σ' (L7 : List (View.Piece (Elt F) S1x1024 .f32)), Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Body

end
-- ==== Proof.KI.RunD.lean ====
/-
  The kernel body run symbolically at a point whose column-block is not 0 and whose row-block equals its column-block.
-/
import proofs.«158999_j2800318677430_2_alg».proof.Proof.KI.Sched
import proofs.«158999_j2800318677430_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point off the first column-block, on the diagonal of blocks: on whole staging memrefs, the three inputs at
    their contents (the five row outputs are not touched and are left out), every output it stores into at anything, the body runs and hands the inputs back as they
    were and each stored output with its pieces written, last store first. The pieces are the witness the run finds. -/
noncomputable def runD (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : condDiag i)
    (x0 : Vec F S1x1024 .f32) (x1 : Vec F S1x1024 .f32) (x2 : Vec F S1x1024 .f32) :
    Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d8, %f8, -, H8⟩, ⟨%d9, %f9, -, H9⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]; · iexists _; iexact H8
    iexists _; iexact H9

end Cert.KernelIdeal.Body

end
-- ==== Proof.KI.Pieces.lean ====
/-
  What each case of the body leaves in each output's staging buffer, read back: every store is of a whole block, so the
  buffer reads as the payload of the LAST store into it, whatever it held before — the row outputs at the body's pointwise
  functions of the loaded input blocks, the matrix tiles at the diagonal segment (when the second store happens) or at zero.
-/
import proofs.«158999_j2800318677430_2_alg».proof.Proof.KI.RunA
import proofs.«158999_j2800318677430_2_alg».proof.Proof.KI.RunB
import proofs.«158999_j2800318677430_2_alg».proof.Proof.KI.RunC
import proofs.«158999_j2800318677430_2_alg».proof.Proof.KI.RunD
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A whole-block store, made last, leaves its payload, whatever the earlier stores and the prior contents. -/
theorem read_writes_head_whole {S : Shape} {e : EltTy} {sg : RefSig} {κ : Kind} {sp : Space} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

theorem runA_w3 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).1) = k0_pay10 x0 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w4 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.1) = k0_pay11 x1 x2 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w5 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.1) = k0_pay12 x1 x2 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w6 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.1) = k0_pay13 (F := F) := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w7 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.2.1) = k0_pay14 x1 x2 := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.2.2.1) = k0_pay2 (k0_pay8 x2) := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runA_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runA c i arg2 harg2 arg3 harg3 arg4 harg4 arg5 harg5 arg6 harg6 arg7 harg7 arg8 harg8 arg9 harg9 arg10 harg10 arg11 harg11 hc0 hc1 x0 x1 x2).2.2.2.2.2.2.1) = k0_pay3 (k0_pay9 x1 x2) := by
  unfold runA
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w3 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).1) = k0_pay10 x0 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w4 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.1) = k0_pay11 x1 x2 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w5 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.1) = k0_pay12 x1 x2 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w6 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.1) = k0_pay13 (F := F) := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w7 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.2.1) = k0_pay14 x1 x2 := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.2.2.1) = k0_pay15 (F := F) := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runC_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runC c i arg2 harg2 arg3 harg3 arg4 harg4 arg5 harg5 arg6 harg6 arg7 harg7 arg8 harg8 arg9 harg9 arg10 harg10 arg11 harg11 hc0 hc1 x0 x1 x2).2.2.2.2.2.2.1) = k0_pay16 (F := F) := by
  unfold runC
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runB_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 hc0 hc1 x0 x1 x2).1) = k0_pay15 (F := F) := by
  unfold runB
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runB_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : ¬condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 hc0 hc1 x0 x1 x2).2.1) = k0_pay16 (F := F) := by
  unfold runB
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runD_w8 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 hc0 hc1 x0 x1 x2).1) = k0_pay2 (k0_pay8 x2) := by
  unfold runD
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

theorem runD_w9 (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬condCol0 i) (hc1 : condDiag i)
    (x0 : Vec F S1x1024 .f32) (x1 : Vec F S1x1024 .f32) (x2 : Vec F S1x1024 .f32)
    (v : View sig .tc .vmem S1024x1024 .f32) (f : v.ty.Contents (Elt F)) :
    v.read (Elt F) (v.writes (Elt F) f (runD c i arg2 harg2 arg3 harg3 arg4 harg4 arg5 harg5 arg6 harg6 arg7 harg7 arg8 harg8 arg9 harg9 arg10 harg10 arg11 harg11 hc0 hc1 x0 x1 x2).2.1) = k0_pay3 (k0_pay9 x1 x2) := by
  unfold runD
  dsimp only
  rw [read_writes_head_whole v f hz2]
  all_goals first
    | (try sl_unfold_words
       simp only [View.readAt_eq_ld, harg2.read_unread, harg3.read_unread, harg4.read_unread, View.ld_unit_zero (S := S1x1024) hz2]
       done)
    | rfl

end Cert.KernelIdeal.Body

end
-- ==== Proof.KI.Data.lean ====
/-
  The proof data of the pipeline: what each window's staging buffer holds after the body at each grid point.

  Point `t` is row-block `t / 8`, column-block `t % 8`. The three inputs and the five row outputs are 1 × 1024 blocks
  that move with the ROW-block only, so across the eight points of a row-block nothing of them changes: the row outputs,
  stored at the first of the eight points, are a function of the row-block's input entries alone, and we state them so at
  EVERY point — at the seven idle points the buffer still holds what the first point stored. The two matrix tiles are
  1024 × 1024: the diagonal segment where row-block = column-block, zero elsewhere.
-/
import proofs.«158999_j2800318677430_2_alg».proof.Proof.KI.Sched
import proofs.«158999_j2800318677430_2_alg».proof.Proof.Gen.KernelIdeal.Skeleton
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row-block of point `t`. -/
def blkRow (t : Fin cfg0.N) : Fin 8 := ⟨t.val / 8, by have := t.isLt; have h : cfg0.N = 64 := N_0; omega⟩

/-- Row-block `k` of a 1 × 8192 row: its entries `1024 k … 1024 k + 1023`. -/
def rowBlk (A : Vec F S1x8192 .f32) (k : Fin 8) : Vec F S1x1024 .f32 := fun y =>
  A (ValueIdx.ix2 (0 : Fin 1) (⟨1024 * k.val + (y 1).val, by have := ValueIdx.idx2_lt1 y; have := k.isLt; omega⟩ : Fin 8192))

/-- The three input rows' blocks at point `t`, read off the arrays as the region finds them. -/
abbrev xBlk (c : Dev nD) (t : Fin cfg0.N) : Vec F S1x1024 .f32 := rowBlk (V m c main_arg0) (blkRow t)
abbrev loBlk (c : Dev nD) (t : Fin cfg0.N) : Vec F S1x1024 .f32 := rowBlk (V m c main_arg1) (blkRow t)
abbrev upBlk (c : Dev nD) (t : Fin cfg0.N) : Vec F S1x1024 .f32 := rowBlk (V m c main_arg2) (blkRow t)

/-- The lower-weight tile at point `t`: the diagonal segment on the diagonal of blocks, zero off it. -/
def tileLo (t : Fin cfg0.N) (up : Vec F S1x1024 .f32) : Vec F S1024x1024 .f32 :=
  if t.val % 9 = 0 then k0_pay2 (k0_pay8 up) else k0_pay15
/-- The upper-weight tile at point `t`. -/
def tileUp (t : Fin cfg0.N) (lo up : Vec F S1x1024 .f32) : Vec F S1024x1024 .f32 :=
  if t.val % 9 = 0 then k0_pay3 (k0_pay9 lo up) else k0_pay16

/-- The proof data on core `c`: the arrays as the region finds them; after the body at point `t` each input's buffer at
    its block, each row output's at the body's pointwise function of the row-block's input entries, each matrix output's
    at its tile; the invariant the scoped rest and the random-number generator's register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay10 (xBlk m c t)
    | ⟨4, _⟩ => k0_pay11 (loBlk m c t) (upBlk m c t)
    | ⟨5, _⟩ => k0_pay12 (loBlk m c t) (upBlk m c t)
    | ⟨6, _⟩ => k0_pay13 (F := F)
    | ⟨7, _⟩ => k0_pay14 (loBlk m c t) (upBlk m c t)
    | ⟨8, _⟩ => tileLo t (upBlk m c t)
    | ⟨9, _⟩ => tileUp t (loBlk m c t) (upBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay10 (xBlk m c t) := by dsimp only [dats]
theorem after_4 (c : Dev nD) (t : Fin cfg0.N) : (dats m 0 c).after 4 t = k0_pay11 (loBlk m c t) (upBlk m c t) := by dsimp only [dats]
theorem after_5 (c : Dev nD) (t : Fin cfg0.N) : (dats m 0 c).after 5 t = k0_pay12 (loBlk m c t) (upBlk m c t) := by dsimp only [dats]
theorem after_6 (c : Dev nD) (t : Fin cfg0.N) : (dats m 0 c).after 6 t = k0_pay13 (F := F) := by dsimp only [dats]
theorem after_7 (c : Dev nD) (t : Fin cfg0.N) : (dats m 0 c).after 7 t = k0_pay14 (loBlk m c t) (upBlk m c t) := by dsimp only [dats]
theorem after_8 (c : Dev nD) (t : Fin cfg0.N) : (dats m 0 c).after 8 t = tileLo t (upBlk m c t) := by dsimp only [dats]
theorem after_9 (c : Dev nD) (t : Fin cfg0.N) : (dats m 0 c).after 9 t = tileUp t (loBlk m c t) (upBlk m c t) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The input windows' block index on the long axis is the row-block. -/
theorem index_in : ∀ t : Fin cfg0.N, win0_0.index t (0 : Fin 2) = 0 ∧ win0_0.index t (1 : Fin 2) = t.val / 8
    ∧ win0_1.index t (0 : Fin 2) = 0 ∧ win0_1.index t (1 : Fin 2) = t.val / 8
    ∧ win0_2.index t (0 : Fin 2) = 0 ∧ win0_2.index t (1 : Fin 2) = t.val / 8 :=
  (by decide +kernel : ∀ t : Fin grid0.N, _)

/-- An input window's block at point `t` is the row-block of its array. -/
theorem iblk_0 (c : Dev nD) (t : Fin cfg0.N) : (iblk m c 0 t : Vec F S1x1024 .f32) = xBlk m c t := by
  obtain ⟨e0, e1, -, -, -, -⟩ := index_in t
  funext y
  show V m c main_arg0 (((cfg0.win 0).blk t).view.emb y) = V m c main_arg0 _
  refine congrArg (V m c main_arg0) ?_
  funext a; apply Fin.ext
  match a with
  | ⟨0, _⟩ => show win0_0.index t (0 : Fin 2) * 1 + 1 * (y 0).val = 0; have hj : (y 0).val < 1 := (y 0).isLt; omega
  | ⟨1, _⟩ => show win0_0.index t (1 : Fin 2) * 1024 + 1 * (y 1).val = 1024 * (t.val / 8) + (y 1).val; omega
theorem iblk_1 (c : Dev nD) (t : Fin cfg0.N) : (iblk m c 1 t : Vec F S1x1024 .f32) = loBlk m c t := by
  obtain ⟨-, -, e0, e1, -, -⟩ := index_in t
  funext y
  show V m c main_arg1 (((cfg0.win 1).blk t).view.emb y) = V m c main_arg1 _
  refine congrArg (V m c main_arg1) ?_
  funext a; apply Fin.ext
  match a with
  | ⟨0, _⟩ => show win0_1.index t (0 : Fin 2) * 1 + 1 * (y 0).val = 0; have hj : (y 0).val < 1 := (y 0).isLt; omega
  | ⟨1, _⟩ => show win0_1.index t (1 : Fin 2) * 1024 + 1 * (y 1).val = 1024 * (t.val / 8) + (y 1).val; omega
theorem iblk_2 (c : Dev nD) (t : Fin cfg0.N) : (iblk m c 2 t : Vec F S1x1024 .f32) = upBlk m c t := by
  obtain ⟨-, -, -, -, e0, e1⟩ := index_in t
  funext y
  show V m c main_arg2 (((cfg0.win 2).blk t).view.emb y) = V m c main_arg2 _
  refine congrArg (V m c main_arg2) ?_
  funext a; apply Fin.ext
  match a with
  | ⟨0, _⟩ => show win0_2.index t (0 : Fin 2) * 1 + 1 * (y 0).val = 0; have hj : (y 0).val < 1 := (y 0).isLt; omega
  | ⟨1, _⟩ => show win0_2.index t (1 : Fin 2) * 1024 + 1 * (y 1).val = 1024 * (t.val / 8) + (y 1).val; omega

/-- Within a row-block the row-block does not change from a point to the next. -/
theorem blkRow_pred (t : Fin cfg0.N) (h : t.val % 8 ≠ 0) :
    blkRow ⟨t.val - 1, Nat.lt_of_le_of_lt (Nat.sub_le _ _) t.isLt⟩ = blkRow t := by
  apply Fin.ext; show (t.val - 1) / 8 = t.val / 8; omega

/-- A ROW OUTPUT CARRIED THROUGH ITS IDLE POINTS. For an output window that is uncut, live exactly at the first point of
    each row-block, written back only at the last, and whose stated contents do not change inside a row-block: at every
    idle point its staging buffer holds the stated contents — by induction along the row-block, the first idle point
    finding what the live point left, each later one what the one before found. -/
theorem before_carried {c : Dev nD} (dat : Dat τ (Elt F) Unit ℕ (UR sig nD τ) ℕ cfg0 c) (w : Fin cfg0.W)
    (hw : (cfg0.win w).isOut = true)
    (hidle : ∀ t : Fin cfg0.N, cfg0.idle w (grid0.coords t) = !decide (t.val % 8 = 0))
    (hflush : ∀ t : Fin cfg0.N, (cfg0.win w).flush t = true ↔ t.val % 8 = 7)
    (hclip : ∀ (i : grid0.Coords) a, (cfg0.win w).clip i a = none)
    (hsame : ∀ t : Fin cfg0.N, t.val % 8 ≠ 0 → dat.after w ⟨t.val - 1, Nat.lt_of_le_of_lt (Nat.sub_le _ _) t.isLt⟩ = dat.after w t)
    (d) : ∀ (n : ℕ) (hn : n < cfg0.N), n % 8 ≠ 0 → dat.before w ⟨n, hn⟩ d = dat.after w ⟨n, hn⟩ := by
  intro n
  induction n with
  | zero => intro hn h; exact absurd rfl h
  | succ k ih =>
    intro hn h
    have hk : k < cfg0.N := Nat.lt_of_succ_lt hn
    have hfl : (cfg0.win w).flush ⟨k, hk⟩ = false := Bool.eq_false_iff.mpr fun hf => by
      have := (hflush ⟨k, hk⟩).mp hf; dsimp only at this; omega
    rw [dat.before_of_pos w ⟨k + 1, hn⟩ (Nat.succ_ne_zero k) ((cfg0.win w).fetch_out hw _)]
    show (if (cfg0.win w).flush ⟨k, hk⟩ = true then d else dat.left w ⟨k, hk⟩ d) = _
    rw [hfl, if_neg Bool.false_ne_true]
    unfold Dat.left
    rw [hidle ⟨k, hk⟩]
    by_cases h0 : k % 8 = 0
    · rw [show (!decide ((⟨k, hk⟩ : Fin cfg0.N).val % 8 = 0)) = false from by simp [h0]]
      dsimp only
      unfold Dat.kept
      rw [Pipeline.fill_of_clip_none w _ (hclip _) d (dat.after w ⟨k, hk⟩), Window.fill_cut]
      exact hsame ⟨k + 1, hn⟩ h
    · rw [show (!decide ((⟨k, hk⟩ : Fin cfg0.N).val % 8 = 0)) = true from by simp [h0]]
      dsimp only
      rw [ih hk h0]
      exact hsame ⟨k + 1, hn⟩ h

end Cert.KernelIdeal.Body

end
-- ==== Proof.KI.Cases.lean ====
/-
  The four cases of the body, each run to the proof data's contents: what the stores leave, read back, is what the proof
  data states for the point — the row outputs the body's pointwise functions of the row-block's input entries, the tiles
  the diagonal segment on the diagonal of blocks and zero off it.
-/
import proofs.«158999_j2800318677430_2_alg».proof.Proof.KI.Pieces
import proofs.«158999_j2800318677430_2_alg».proof.Proof.KI.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- The body at a point of the first column-block, on the diagonal of blocks: from the inputs' buffers at their blocks and the
    buffers it stores into at anything, it runs to the continuation holding the inputs' buffers as they were and each stored
    buffer at the proof data's contents for the point. -/
theorem caseA (c : Dev nD) (t : Fin cfg0.N) (h0 : t.val % 8 = 0) (h1 : t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms3 t) fullShare d)
        ∗ (∃ d, owns (c : Thread nD τ) (ms4 t) fullShare d)
        ∗ (∃ d, owns (c : Thread nD τ) (ms5 t) fullShare d)
        ∗ (∃ d, owns (c : Thread nD τ) (ms6 t) fullShare d)
        ∗ (∃ d, owns (c : Thread nD τ) (ms7 t) fullShare d)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms3 t) fullShare ((dats m 0 c).after 3 t)
          ∗ owns (c : Thread nD τ) (ms4 t) fullShare ((dats m 0 c).after 4 t)
          ∗ owns (c : Thread nD τ) (ms5 t) fullShare ((dats m 0 c).after 5 t)
          ∗ owns (c : Thread nD τ) (ms6 t) fullShare ((dats m 0 c).after 6 t)
          ∗ owns (c : Thread nD τ) (ms7 t) fullShare ((dats m 0 c).after 7 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e3 : ∀ f, (ms3 t).view.read (Elt F) ((ms3 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).1) = (dats m 0 c).after 3 t :=
    fun f => (runA_w3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms3 t).view f).trans
      (show k0_pay10 (iblk m c 0 t) = _ from by rw [after_3, iblk_0])
  have e4 : ∀ f, (ms4 t).view.read (Elt F) ((ms4 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.1) = (dats m 0 c).after 4 t :=
    fun f => (runA_w4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms4 t).view f).trans
      (show k0_pay11 (iblk m c 1 t) (iblk m c 2 t) = _ from by rw [after_4, iblk_1, iblk_2])
  have e5 : ∀ f, (ms5 t).view.read (Elt F) ((ms5 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.1) = (dats m 0 c).after 5 t :=
    fun f => (runA_w5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms5 t).view f).trans
      (show k0_pay12 (iblk m c 1 t) (iblk m c 2 t) = _ from by rw [after_5, iblk_1, iblk_2])
  have e6 : ∀ f, (ms6 t).view.read (Elt F) ((ms6 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.1) = (dats m 0 c).after 6 t :=
    fun f => (runA_w6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms6 t).view f).trans
      (show k0_pay13 (F := F) = _ from by rw [after_6])
  have e7 : ∀ f, (ms7 t).view.read (Elt F) ((ms7 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.1) = (dats m 0 c).after 7 t :=
    fun f => (runA_w7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms7 t).view f).trans
      (show k0_pay14 (iblk m c 1 t) (iblk m c 2 t) = _ from by rw [after_7, iblk_1, iblk_2])
  have e8 : ∀ f, (ms8 t).view.read (Elt F) ((ms8 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.2.1) = (dats m 0 c).after 8 t :=
    fun f => (runA_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms8 t).view f).trans
      (show k0_pay2 (k0_pay8 (iblk m c 2 t)) = _ from by rw [after_8, iblk_2]; unfold tileLo; rw [if_pos h1])
  have e9 : ∀ f, (ms9 t).view.read (Elt F) ((ms9 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.2.2.1) = (dats m 0 c).after 9 t :=
    fun f => (runA_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t) (ms9 t).view f).trans
      (show k0_pay3 (k0_pay9 (iblk m c 1 t) (iblk m c 2 t)) = _ from by rw [after_9, iblk_1, iblk_2]; unfold tileUp; rw [if_pos h1])
  iintro ⟨H0, H1, H2, H3, H4, H5, H6, H7, H8, H9, Hk⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) ((condDiag_iff t).mpr h1) (iblk m c 0 t) (iblk m c 1 t) (iblk m c 2 t)).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, ⟨%f3, H3⟩, ⟨%f4, H4⟩, ⟨%f5, H5⟩, ⟨%f6, H6⟩, ⟨%f7, H7⟩, ⟨%f8, H8⟩, ⟨%f9, H9⟩⟩
  iapply Hk
  isplitl [H0]; · iexact H0
  isplitl [H1]; · iexact H1
  isplitl [H2]; · iexact H2
  isplitl [H3]
  · unfold owns; iexists _; isplitr; swap; · iexact H3
    ipureintro; exact e3 _
  isplitl [H4]
  · unfold owns; iexists _; isplitr; swap; · iexact H4
    ipureintro; exact e4 _
  isplitl [H5]
  · unfold owns; iexists _; isplitr; swap; · iexact H5
    ipureintro; exact e5 _
  isplitl [H6]
  · unfold owns; iexists _; isplitr; swap; · iexact H6
    ipureintro; exact e6 _
  isplitl [H7]
  · unfold owns; iexists _; isplitr; swap; · iexact H7
    ipureintro; exact e7 _
  isplitl [H8]
  · unfold owns; iexists _; isplitr; swap; · iexact H8
    ipureintro; exact e8 _
  unfold owns; iexists _; isplitr; swap; · iexact H9
  ipureintro; exact e9 _

set_option maxHeartbeats 1600000 in
/-- The body at a point of the first column-block, off the diagonal of blocks: from the inputs' buffers at their blocks and the
    buffers it stores into at anything, it runs to the continuation holding the inputs' buffers as they were and each stored
    buffer at the proof data's contents for the point. -/
theorem caseC (c : Dev nD) (t : Fin cfg0.N) (h0 : t.val % 8 = 0) (h1 : ¬t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms3 t) fullShare d)
        ∗ (∃ d, owns (c : Thread nD τ) (ms4 t) fullShare d)
        ∗ (∃ d, owns (c : Thread nD τ) (ms5 t) fullShare d)
        ∗ (∃ d, owns (c : Thread nD τ) (ms6 t) fullShare d)
        ∗ (∃ d, owns (c : Thread nD τ) (ms7 t) fullShare d)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms3 t) fullShare ((dats m 0 c).after 3 t)
          ∗ owns (c : Thread nD τ) (ms4 t) fullShare ((dats m 0 c).after 4 t)
          ∗ owns (c : Thread nD τ) (ms5 t) fullShare ((dats m 0 c).after 5 t)
          ∗ owns (c : Thread nD τ) (ms6 t) fullShare ((dats m 0 c).after 6 t)
          ∗ owns (c : Thread nD τ) (ms7 t) fullShare ((dats m 0 c).after 7 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e3 : ∀ f, (ms3 t).view.read (Elt F) ((ms3 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).1) = (dats m 0 c).after 3 t :=
    fun f => (runC_w3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms3 t).view f).trans
      (show k0_pay10 (iblk m c 0 t) = _ from by rw [after_3, iblk_0])
  have e4 : ∀ f, (ms4 t).view.read (Elt F) ((ms4 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.1) = (dats m 0 c).after 4 t :=
    fun f => (runC_w4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms4 t).view f).trans
      (show k0_pay11 (iblk m c 1 t) (iblk m c 2 t) = _ from by rw [after_4, iblk_1, iblk_2])
  have e5 : ∀ f, (ms5 t).view.read (Elt F) ((ms5 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.1) = (dats m 0 c).after 5 t :=
    fun f => (runC_w5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms5 t).view f).trans
      (show k0_pay12 (iblk m c 1 t) (iblk m c 2 t) = _ from by rw [after_5, iblk_1, iblk_2])
  have e6 : ∀ f, (ms6 t).view.read (Elt F) ((ms6 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.1) = (dats m 0 c).after 6 t :=
    fun f => (runC_w6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms6 t).view f).trans
      (show k0_pay13 (F := F) = _ from by rw [after_6])
  have e7 : ∀ f, (ms7 t).view.read (Elt F) ((ms7 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.1) = (dats m 0 c).after 7 t :=
    fun f => (runC_w7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms7 t).view f).trans
      (show k0_pay14 (iblk m c 1 t) (iblk m c 2 t) = _ from by rw [after_7, iblk_1, iblk_2])
  have e8 : ∀ f, (ms8 t).view.read (Elt F) ((ms8 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.2.1) = (dats m 0 c).after 8 t :=
    fun f => (runC_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms8 t).view f).trans
      (show k0_pay15 (F := F) = _ from by rw [after_8]; unfold tileLo; rw [if_neg h1])
  have e9 : ∀ f, (ms9 t).view.read (Elt F) ((ms9 t).view.writes (Elt F) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.2.2.1) = (dats m 0 c).after 9 t :=
    fun f => (runC_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t) (ms9 t).view f).trans
      (show k0_pay16 (F := F) = _ from by rw [after_9]; unfold tileUp; rw [if_neg h1])
  iintro ⟨H0, H1, H2, H3, H4, H5, H6, H7, H8, H9, Hk⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((condCol0_iff t).mpr h0) (fun h => h1 ((condDiag_iff t).mp h)) (iblk m c 0 t) (iblk m c 1 t) (iblk m c 2 t)).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, ⟨%f3, H3⟩, ⟨%f4, H4⟩, ⟨%f5, H5⟩, ⟨%f6, H6⟩, ⟨%f7, H7⟩, ⟨%f8, H8⟩, ⟨%f9, H9⟩⟩
  iapply Hk
  isplitl [H0]; · iexact H0
  isplitl [H1]; · iexact H1
  isplitl [H2]; · iexact H2
  isplitl [H3]
  · unfold owns; iexists _; isplitr; swap; · iexact H3
    ipureintro; exact e3 _
  isplitl [H4]
  · unfold owns; iexists _; isplitr; swap; · iexact H4
    ipureintro; exact e4 _
  isplitl [H5]
  · unfold owns; iexists _; isplitr; swap; · iexact H5
    ipureintro; exact e5 _
  isplitl [H6]
  · unfold owns; iexists _; isplitr; swap; · iexact H6
    ipureintro; exact e6 _
  isplitl [H7]
  · unfold owns; iexists _; isplitr; swap; · iexact H7
    ipureintro; exact e7 _
  isplitl [H8]
  · unfold owns; iexists _; isplitr; swap; · iexact H8
    ipureintro; exact e8 _
  unfold owns; iexists _; isplitr; swap; · iexact H9
  ipureintro; exact e9 _

set_option maxHeartbeats 1600000 in
/-- The body at a point off the first column-block, on the diagonal of blocks: from the inputs' buffers at their blocks and the
    buffers it stores into at anything, it runs to the continuation holding the inputs' buffers as they were and each stored
    buffer at the proof data's contents for the point. -/
theorem caseD (c : Dev nD) (t : Fin cfg0.N) (h0 : ¬t.val % 8 = 0) (h1 : t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e8 : ∀ f, (ms8 t).view.read (Elt F) ((ms8 t).view.writes (Elt F) f (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t)).1) = (dats m 0 c).after 8 t :=
    fun f => (runD_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t) (ms8 t).view f).trans
      (show k0_pay2 (k0_pay8 (iblk m c 2 t)) = _ from by rw [after_8, iblk_2]; unfold tileLo; rw [if_pos h1])
  have e9 : ∀ f, (ms9 t).view.read (Elt F) ((ms9 t).view.writes (Elt F) f (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t)).2.1) = (dats m 0 c).after 9 t :=
    fun f => (runD_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t) (ms9 t).view f).trans
      (show k0_pay3 (k0_pay9 (iblk m c 1 t) (iblk m c 2 t)) = _ from by rw [after_9, iblk_1, iblk_2]; unfold tileUp; rw [if_pos h1])
  iintro ⟨H0, H1, H2, H8, H9, Hk⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) ((condDiag_iff t).mpr h1) (iblk m c 0 t) (iblk m c 1 t) (iblk m c 2 t)).2.2 E K)
  isplitl [H0]; · iexact H0
  isplitl [H1]; · iexact H1
  isplitl [H2]; · iexact H2
  isplitl [H8]; · iexact H8
  isplitl [H9]; · iexact H9
  iintro ⟨H0, H1, H2, ⟨%f8, H8⟩, ⟨%f9, H9⟩⟩
  iapply Hk
  isplitl [H0]; · iexact H0
  isplitl [H1]; · iexact H1
  isplitl [H2]; · iexact H2
  isplitl [H8]
  · unfold owns; iexists _; isplitr; swap; · iexact H8
    ipureintro; exact e8 _
  unfold owns; iexists _; isplitr; swap; · iexact H9
  ipureintro; exact e9 _

set_option maxHeartbeats 1600000 in
/-- The body at a point off the first column-block, off the diagonal of blocks: from the inputs' buffers at their blocks and the
    buffers it stores into at anything, it runs to the continuation holding the inputs' buffers as they were and each stored
    buffer at the proof data's contents for the point. -/
theorem caseB (c : Dev nD) (t : Fin cfg0.N) (h0 : ¬t.val % 8 = 0) (h1 : ¬t.val % 9 = 0) (E : Set ℕ) (K : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ (∃ d, owns (c : Thread nD τ) (ms8 t) fullShare d)
        ∗ (∃ d, owns (c : Thread nD τ) (ms9 t) fullShare d)
        ∗ (iprop(owns (c : Thread nD τ) (ms0 t) fullShare (iblk m c 0 t)
          ∗ owns (c : Thread nD τ) (ms1 t) fullShare (iblk m c 1 t)
          ∗ owns (c : Thread nD τ) (ms2 t) fullShare (iblk m c 2 t)
          ∗ owns (c : Thread nD τ) (ms8 t) fullShare ((dats m 0 c).after 8 t)
          ∗ owns (c : Thread nD τ) (ms9 t) fullShare ((dats m 0 c).after 9 t)) -∗ K ⟨⟩))
      ⊢ wp frame (wpE (defs₀ (F := F)) Variants.none c none) E (bodyAt0 t) K := by
  have e8 : ∀ f, (ms8 t).view.read (Elt F) ((ms8 t).view.writes (Elt F) f (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t)).1) = (dats m 0 c).after 8 t :=
    fun f => (runB_w8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t) (ms8 t).view f).trans
      (show k0_pay15 (F := F) = _ from by rw [after_8]; unfold tileLo; rw [if_neg h1])
  have e9 : ∀ f, (ms9 t).view.read (Elt F) ((ms9 t).view.writes (Elt F) f (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t)).2.1) = (dats m 0 c).after 9 t :=
    fun f => (runB_w9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t) (ms9 t).view f).trans
      (show k0_pay16 (F := F) = _ from by rw [after_9]; unfold tileUp; rw [if_neg h1])
  iintro ⟨H0, H1, H2, H8, H9, Hk⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((condCol0_iff t).mp h)) (fun h => h1 ((condDiag_iff t).mp h)) (iblk m c 0 t) (iblk m c 1 t) (iblk m c 2 t)).2.2 E K)
  isplitl [H0]; · iexact H0
  isplitl [H1]; · iexact H1
  isplitl [H2]; · iexact H2
  isplitl [H8]; · iexact H8
  isplitl [H9]; · iexact H9
  iintro ⟨H0, H1, H2, ⟨%f8, H8⟩, ⟨%f9, H9⟩⟩
  iapply Hk
  isplitl [H0]; · iexact H0
  isplitl [H1]; · iexact H1
  isplitl [H2]; · iexact H2
  isplitl [H8]
  · unfold owns; iexists _; isplitr; swap; · iexact H8
    ipureintro; exact e8 _
  unfold owns; iexists _; isplitr; swap; · iexact H9
  ipureintro; exact e9 _

end Cert.KernelIdeal.Body

end
-- ==== Proof.KI.Body.lean ====
/-
  The body obligation of the pipeline and its run. At a point of the first column-block the body stores all seven
  outputs; elsewhere it stores only the two matrix tiles and the five row outputs' buffers pass through untouched — they
  still hold what the first point of the row-block stored, which is what the last point of the row-block writes back.
-/
import proofs.«158999_j2800318677430_2_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem carried_3 (c : Dev nD) (t : Fin cfg0.N) (h : t.val % 8 ≠ 0) (d) : (dats m 0 c).before 3 t d = (dats m 0 c).after 3 t :=
  before_carried (dats m 0 c) 3 rfl idle_3 flush0_3 (fun _ _ => rfl) (fun s hs => by rw [after_3, after_3]; show k0_pay10 (rowBlk _ (blkRow _)) = k0_pay10 (rowBlk _ (blkRow s)); rw [blkRow_pred s hs]) d t.val t.isLt h
theorem carried_4 (c : Dev nD) (t : Fin cfg0.N) (h : t.val % 8 ≠ 0) (d) : (dats m 0 c).before 4 t d = (dats m 0 c).after 4 t :=
  before_carried (dats m 0 c) 4 rfl idle_4 flush0_4 (fun _ _ => rfl) (fun s hs => by rw [after_4, after_4]; show k0_pay11 (rowBlk _ (blkRow _)) (rowBlk _ (blkRow _)) = k0_pay11 (rowBlk _ (blkRow s)) (rowBlk _ (blkRow s)); rw [blkRow_pred s hs]) d t.val t.isLt h
theorem carried_5 (c : Dev nD) (t : Fin cfg0.N) (h : t.val % 8 ≠ 0) (d) : (dats m 0 c).before 5 t d = (dats m 0 c).after 5 t :=
  before_carried (dats m 0 c) 5 rfl idle_5 flush0_5 (fun _ _ => rfl) (fun s hs => by rw [after_5, after_5]; show k0_pay12 (rowBlk _ (blkRow _)) (rowBlk _ (blkRow _)) = k0_pay12 (rowBlk _ (blkRow s)) (rowBlk _ (blkRow s)); rw [blkRow_pred s hs]) d t.val t.isLt h
theorem carried_6 (c : Dev nD) (t : Fin cfg0.N) (h : t.val % 8 ≠ 0) (d) : (dats m 0 c).before 6 t d = (dats m 0 c).after 6 t :=
  before_carried (dats m 0 c) 6 rfl idle_6 flush0_6 (fun _ _ => rfl) (fun s hs => by rw [after_6, after_6]) d t.val t.isLt h
theorem carried_7 (c : Dev nD) (t : Fin cfg0.N) (h : t.val % 8 ≠ 0) (d) : (dats m 0 c).before 7 t d = (dats m 0 c).after 7 t :=
  before_carried (dats m 0 c) 7 rfl idle_7 flush0_7 (fun _ _ => rfl) (fun s hs => by rw [after_7, after_7]; show k0_pay14 (rowBlk _ (blkRow _)) (rowBlk _ (blkRow _)) = k0_pay14 (rowBlk _ (blkRow s)) (rowBlk _ (blkRow s)); rw [blkRow_pred s hs]) d t.val t.isLt h

/-- At a point idle for an output window, the buffer handed to the body is what the obligation asks back: as found
    when the point does not write back, and the stated contents — equal to what was found — when it does. -/
theorem carried_post {c : Dev nD} (dat : Dat τ (Elt F) Unit ℕ (UR sig nD τ) ℕ cfg0 c) (w : Fin cfg0.W) (t : Fin cfg0.N)
    (hi : cfg0.idle w (grid0.coords t) = true) (hb : ∀ d, dat.before w t d = dat.after w t) (d) :
    owns (c : Thread nD τ) ((cfg0.win w).stage (cfg0.slots t w)) fullShare (dat.before w t d) ⊢ (dat.leavesExact w t : sProp 𝕄) := by
  unfold Dat.leavesExact
  rw [hi]
  dsimp only
  split
  · iintro H; iexists d; iexact H
  · exact Entails.of_eq (by rw [hb d])

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point, by cases on the column-block (is it 0?) and on the diagonal (row-block = column-block?). -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live_0 t]]
  rw [show (dats m 0 c).leavesExact 1 t = owns (c : Thread nD τ) (ms1 t) fullShare ((dats m 0 c).after 1 t) from by
    unfold Dat.leavesExact; rw [live_1 t]]
  rw [show (dats m 0 c).leavesExact 2 t = owns (c : Thread nD τ) (ms2 t) fullShare ((dats m 0 c).after 2 t) from by
    unfold Dat.leavesExact; rw [live_2 t]]
  rw [show (dats m 0 c).leavesExact 8 t = owns (c : Thread nD τ) (ms8 t) fullShare ((dats m 0 c).after 8 t) from by
    unfold Dat.leavesExact; rw [live_8 t]]
  rw [show (dats m 0 c).leavesExact 9 t = owns (c : Thread nD τ) (ms9 t) fullShare ((dats m 0 c).after 9 t) from by
    unfold Dat.leavesExact; rw [live_9 t]]
  rw [after_0, after_1, after_2]
  by_cases h0 : t.val % 8 = 0
  · have hf : (!decide (t.val % 8 = 0)) = false := by simp [h0]
    rw [show (dats m 0 c).leavesExact 3 t = owns (c : Thread nD τ) (ms3 t) fullShare ((dats m 0 c).after 3 t) from by
      unfold Dat.leavesExact; rw [idle_3 t, hf]]
    rw [show (dats m 0 c).leavesExact 4 t = owns (c : Thread nD τ) (ms4 t) fullShare ((dats m 0 c).after 4 t) from by
      unfold Dat.leavesExact; rw [idle_4 t, hf]]
    rw [show (dats m 0 c).leavesExact 5 t = owns (c : Thread nD τ) (ms5 t) fullShare ((dats m 0 c).after 5 t) from by
      unfold Dat.leavesExact; rw [idle_5 t, hf]]
    rw [show (dats m 0 c).leavesExact 6 t = owns (c : Thread nD τ) (ms6 t) fullShare ((dats m 0 c).after 6 t) from by
      unfold Dat.leavesExact; rw [idle_6 t, hf]]
    rw [show (dats m 0 c).leavesExact 7 t = owns (c : Thread nD τ) (ms7 t) fullShare ((dats m 0 c).after 7 t) from by
      unfold Dat.leavesExact; rw [idle_7 t, hf]]
    by_cases h1 : t.val % 9 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseA m c t h0 h1 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseC m c t h0 h1 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases h1 : t.val % 9 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseD m c t h0 h1 Set.univ _)
      isplitl [H0]; · iexact H0
      isplitl [H1]; · iexact H1
      isplitl [H2]; · iexact H2
      isplitl [H8]; · iexists _; iexact H8
      isplitl [H9]; · iexists _; iexact H9
      iintro ⟨H0, H1, H2, H8, H9⟩
      isplitl [HΦ]; · iexact HΦ
      isplitl [Ho]; · iexact Ho
      isplitl [H0]; · iexact H0
      isplitl [H1]; · iexact H1
      isplitl [H2]; · iexact H2
      isplitl [H3]; · iapply (carried_post (dats m 0 c) 3 t (by rw [idle_3 t]; simp [h0]) (fun d => carried_3 m c t h0 d) d3); iexact H3
      isplitl [H4]; · iapply (carried_post (dats m 0 c) 4 t (by rw [idle_4 t]; simp [h0]) (fun d => carried_4 m c t h0 d) d4); iexact H4
      isplitl [H5]; · iapply (carried_post (dats m 0 c) 5 t (by rw [idle_5 t]; simp [h0]) (fun d => carried_5 m c t h0 d) d5); iexact H5
      isplitl [H6]; · iapply (carried_post (dats m 0 c) 6 t (by rw [idle_6 t]; simp [h0]) (fun d => carried_6 m c t h0 d) d6); iexact H6
      isplitl [H7]; · iapply (carried_post (dats m 0 c) 7 t (by rw [idle_7 t]; simp [h0]) (fun d => carried_7 m c t h0 d) d7); iexact H7
      isplitl [H8]; · iexact H8
      iexact H9
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (caseB m c t h0 h1 Set.univ _)
      isplitl [H0]; · iexact H0
      isplitl [H1]; · iexact H1
      isplitl [H2]; · iexact H2
      isplitl [H8]; · iexists _; iexact H8
      isplitl [H9]; · iexists _; iexact H9
      iintro ⟨H0, H1, H2, H8, H9⟩
      isplitl [HΦ]; · iexact HΦ
      isplitl [Ho]; · iexact Ho
      isplitl [H0]; · iexact H0
      isplitl [H1]; · iexact H1
      isplitl [H2]; · iexact H2
      isplitl [H3]; · iapply (carried_post (dats m 0 c) 3 t (by rw [idle_3 t]; simp [h0]) (fun d => carried_3 m c t h0 d) d3); iexact H3
      isplitl [H4]; · iapply (carried_post (dats m 0 c) 4 t (by rw [idle_4 t]; simp [h0]) (fun d => carried_4 m c t h0 d) d4); iexact H4
      isplitl [H5]; · iapply (carried_post (dats m 0 c) 5 t (by rw [idle_5 t]; simp [h0]) (fun d => carried_5 m c t h0 d) d5); iexact H5
      isplitl [H6]; · iapply (carried_post (dats m 0 c) 6 t (by rw [idle_6 t]; simp [h0]) (fun d => carried_6 m c t h0 d) d6); iexact H6
      isplitl [H7]; · iapply (carried_post (dats m 0 c) 7 t (by rw [idle_7 t]; simp [h0]) (fun d => carried_7 m c t h0 d) d7); iexact H7
      isplitl [H8]; · iexact H8
      iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    library computes from the proof data — each output array overwritten, block by block, by what the points wrote back —
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends with the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The specification, one neuron at a time and then as whole arrays.

  For a neuron with pre-activation bounds `l ≤ u` the ReLU relaxation distinguishes three cases: DEAD (`u ≤ 0`: the output
  is 0), ACTIVE (`l ≥ 0`: the output is the input) and CROSSING (neither: the upper bound is the chord of slope
  `u / (u - l)`, the lower bound keeps `l`). Everything below is written with the float operations of an arbitrary
  instance, comparison results as one-bit words, so that the same text reads at the extended reals; no law of arithmetic
  is used anywhere: both programs compute these very expressions, element by element.

  The two weight matrices are DIAGONAL: entry `(r, c)` is the neuron's weight when `r = c` and zero otherwise.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The float zero and one, as the words both programs spell them. -/
def zero : F .f32 := FloatOps.ofBits .f32 0x00000000#32
def one : F .f32 := FloatOps.ofBits .f32 0x3F800000#32

/-- `u ≤ 0`: the neuron is dead. -/
def dead (u : F .f32) : BitVec 1 := FloatOps.cmpf .ole u zero
/-- `l ≥ 0`: the neuron is stably active. -/
def active (l : F .f32) : BitVec 1 := FloatOps.cmpf .oge l zero
/-- Neither: the bounds straddle zero. -/
def crossing (l u : F .f32) : BitVec 1 := IntOp.andi (IntOp.xori (dead u) 1#1) (IntOp.xori (active l) 1#1)
/-- The chord's slope `u / (u - l)` on a crossing neuron (the divisor is 1 elsewhere, so nothing divides by zero), 0 elsewhere. -/
def slope (l u : F .f32) : F .f32 :=
  Scalar.select (crossing l u) (FloatOps.divf u (Scalar.select (crossing l u) (FloatOps.subf u l) one)) zero

/-- `max(x, 0)`. -/
def relu (x : F .f32) : F .f32 := FloatOps.maximumf x zero
/-- The output's lower bound: 0 when dead, else `l`. -/
def lowerRet (l u : F .f32) : F .f32 := Scalar.select (dead u) zero l
/-- The output's upper bound: 0 when dead, `u` when active, `slope · u` when crossing. -/
def upperRet (l u : F .f32) : F .f32 :=
  Scalar.select (dead u) zero (Scalar.select (active l) u (FloatOps.mulf (slope l u) u))
/-- The upper relaxation's bias: `slope · l` when crossing, else 0. -/
def upperBias (l u : F .f32) : F .f32 := Scalar.select (crossing l u) (FloatOps.mulf (slope l u) l) zero
/-- The lower relaxation's diagonal weight: 0 when dead, else 1. -/
def lowerWeight (u : F .f32) : F .f32 := Scalar.select (dead u) zero one
/-- The upper relaxation's diagonal weight: 0 when dead, 1 when active, the slope when crossing. -/
def upperWeight (l u : F .f32) : F .f32 :=
  Scalar.select (dead u) zero (Scalar.select (active l) one (slope l u))

/-- A row of 8192 neurons, and an 8192 × 8192 matrix. -/
abbrev Row : Shape := ⟨2, ![1, 8192]⟩
abbrev Mat : Shape := ⟨2, ![8192, 8192]⟩

/-! ## The seven results as functions of the three argument rows -/

def xOut (x : Row.Idx → F .f32) : Row.Idx → F .f32 := fun i => relu (x i)
def lowerRetRow (l u : Row.Idx → F .f32) : Row.Idx → F .f32 := fun i => lowerRet (l i) (u i)
def upperRetRow (l u : Row.Idx → F .f32) : Row.Idx → F .f32 := fun i => upperRet (l i) (u i)
def lowerBiasRow : Row.Idx → F .f32 := fun _ => zero
def upperBiasRow (l u : Row.Idx → F .f32) : Row.Idx → F .f32 := fun i => upperBias (l i) (u i)

/-- The diagonal matrix of a row `d`: `d`'s entry `c` at `(c, c)`, zero off the diagonal. -/
def diag (d : Row.Idx → F .f32) : Mat.Idx → F .f32 := fun i =>
  if (i 0).val = (i 1).val then d (ix2 (0 : Fin 1) (⟨(i 1).val, idx2_lt1 i⟩ : Fin 8192)) else zero

def lowerWeights (u : Row.Idx → F .f32) : Mat.Idx → F .f32 := diag fun i => lowerWeight (u i)
def upperWeights (l u : Row.Idx → F .f32) : Mat.Idx → F .f32 := diag fun i => upperWeight (l i) (u i)

end Cert.Spec

end
-- ==== Proof.KI.ValueRows.lean ====
/-
  The five row outputs after the run. Each is stored once per row-block, at its first point, as a pointwise function of
  the row-block's input entries, and written back at the row-block's last point; the eight row-blocks tile the row. So the
  array ends as that pointwise function of the whole argument rows — the specification's row.
-/
import proofs.«158999_j2800318677430_2_alg».proof.Proof.KI.Data
import proofs.«158999_j2800318677430_2_alg».proof.Proof.Spec
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The row outputs' block index on the long axis is the row-block. -/
theorem index_rows : ∀ t : Fin cfg0.N, win0_3.index t (0 : Fin 2) = 0 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = t.val / 8
    ∧ win0_6.index t (0 : Fin 2) = 0 ∧ win0_6.index t (1 : Fin 2) = t.val / 8
    ∧ win0_7.index t (0 : Fin 2) = 0 ∧ win0_7.index t (1 : Fin 2) = t.val / 8 :=
  (by decide +kernel : ∀ t : Fin grid0.N, _)

/-- Where an element of output window 3's block at point `t` sits in its array: row 0, column `1024 (t / 8) + ` its column. -/
theorem emb_3 (t : Fin cfg0.N) (y : S1x1024.Idx) :
    ((cfg0.win 3).blk t).view.emb y = ValueIdx.ix2 (0 : Fin 1) (⟨1024 * (blkRow t).val + (y 1).val, by have := ValueIdx.idx2_lt1 y; have := (blkRow t).isLt; omega⟩ : Fin 8192) := by
  obtain ⟨e0, e1, -, -, -, -, -, -, -, -⟩ := index_rows t
  funext a; apply Fin.ext
  match a with
  | ⟨0, _⟩ => show win0_3.index t (0 : Fin 2) * 1 + 1 * (y 0).val = 0; have hj : (y 0).val < 1 := (y 0).isLt; omega
  | ⟨1, _⟩ => show win0_3.index t (1 : Fin 2) * 1024 + 1 * (y 1).val = 1024 * (t.val / 8) + (y 1).val; omega

/-- WHAT POINT `t` WRITES BACK to output window 3's array is block `t` of the specification's row. -/
theorem flushed_3 (c : Dev nD) (t : Fin cfg0.N) :
    (dats m 0 c).flushed 3 t = ((cfg0.win 3).blk t).view.read (Elt F) (Cert.Spec.xOut (V m c main_arg0)) := by
  show (cfg0.win 3).cut (grid0.coords t) ((dats m 0 c).after 3 t) = _
  rw [after_3]
  funext y
  show k0_pay10 (xBlk m c t) y = Cert.Spec.relu (V m c main_arg0 (((cfg0.win 3).blk t).view.emb y))
  rw [emb_3 t y]
  rfl

/-- An index of the array is in point `t`'s block iff each coordinate is in the block's range on its axis. -/
theorem mem_blk_3 (t : Fin cfg0.N) (i : S1x8192.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v0_0).slice (win0_3.rect t)).set ↔ _
  rw [View.set_slice_whole, Rect.mem_set_unit]
  exact Iff.rfl

/-- Every entry of the row is in the block of the LAST point of its row-block, which writes back. -/
theorem cover_3 (i : S1x8192.Idx) : ∃ t : Fin cfg0.N, (cfg0.win 3).flush t = true ∧ i ∈ ((cfg0.win 3).blk t).view.set := by
  have hi0 : (i 0).val < 1 := (i 0).isLt
  have hi1 : (i 1).val < 8192 := (i 1).isLt
  have hN : cfg0.N = 64 := N_0
  refine ⟨⟨8 * ((i 1).val / 1024) + 7, by omega⟩, (flush0_3 _).mpr (by show (8 * ((i 1).val / 1024) + 7) % 8 = 7; omega), ?_⟩
  rw [mem_blk_3]
  obtain ⟨e0, e1, -, -, -, -, -, -, -, -⟩ := index_rows ⟨8 * ((i 1).val / 1024) + 7, by omega⟩
  intro a
  match a with
  | ⟨0, _⟩ => show win0_3.index _ (0 : Fin 2) * 1 ≤ (i 0).val ∧ (i 0).val < win0_3.index _ (0 : Fin 2) * 1 + 1; rw [e0]; omega
  | ⟨1, _⟩ => show win0_3.index _ (1 : Fin 2) * 1024 ≤ (i 1).val ∧ (i 1).val < win0_3.index _ (1 : Fin 2) * 1024 + 1024; rw [e1]; show (8 * ((i 1).val / 1024) + 7) / 8 * 1024 ≤ (i 1).val ∧ (i 1).val < (8 * ((i 1).val / 1024) + 7) / 8 * 1024 + 1024; omega

/-- THE ARRAY after the run is the specification's row of the argument arrays. -/
theorem final_3 (c : Dev nD) : (dats m 0 c).arrAt 3 cfg0.N = Cert.Spec.xOut (V m c main_arg0) :=
  (dats m 0 c).arrAt_eq_of_cover 3 _ (fun t _ => flushed_3 m c t) cover_3

/-- Where an element of output window 4's block at point `t` sits in its array: row 0, column `1024 (t / 8) + ` its column. -/
theorem emb_4 (t : Fin cfg0.N) (y : S1x1024.Idx) :
    ((cfg0.win 4).blk t).view.emb y = ValueIdx.ix2 (0 : Fin 1) (⟨1024 * (blkRow t).val + (y 1).val, by have := ValueIdx.idx2_lt1 y; have := (blkRow t).isLt; omega⟩ : Fin 8192) := by
  obtain ⟨-, -, e0, e1, -, -, -, -, -, -⟩ := index_rows t
  funext a; apply Fin.ext
  match a with
  | ⟨0, _⟩ => show win0_4.index t (0 : Fin 2) * 1 + 1 * (y 0).val = 0; have hj : (y 0).val < 1 := (y 0).isLt; omega
  | ⟨1, _⟩ => show win0_4.index t (1 : Fin 2) * 1024 + 1 * (y 1).val = 1024 * (t.val / 8) + (y 1).val; omega

/-- WHAT POINT `t` WRITES BACK to output window 4's array is block `t` of the specification's row. -/
theorem flushed_4 (c : Dev nD) (t : Fin cfg0.N) :
    (dats m 0 c).flushed 4 t = ((cfg0.win 4).blk t).view.read (Elt F) (Cert.Spec.lowerRetRow (V m c main_arg1) (V m c main_arg2)) := by
  show (cfg0.win 4).cut (grid0.coords t) ((dats m 0 c).after 4 t) = _
  rw [after_4]
  funext y
  show k0_pay11 (loBlk m c t) (upBlk m c t) y = Cert.Spec.lowerRet (V m c main_arg1 (((cfg0.win 4).blk t).view.emb y)) (V m c main_arg2 (((cfg0.win 4).blk t).view.emb y))
  rw [emb_4 t y]
  rfl

/-- An index of the array is in point `t`'s block iff each coordinate is in the block's range on its axis. -/
theorem mem_blk_4 (t : Fin cfg0.N) (i : S1x8192.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v0_1).slice (win0_4.rect t)).set ↔ _
  rw [View.set_slice_whole, Rect.mem_set_unit]
  exact Iff.rfl

/-- Every entry of the row is in the block of the LAST point of its row-block, which writes back. -/
theorem cover_4 (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 64 := N_0
  refine ⟨⟨8 * ((i 1).val / 1024) + 7, by omega⟩, (flush0_4 _).mpr (by show (8 * ((i 1).val / 1024) + 7) % 8 = 7; omega), ?_⟩
  rw [mem_blk_4]
  obtain ⟨-, -, e0, e1, -, -, -, -, -, -⟩ := index_rows ⟨8 * ((i 1).val / 1024) + 7, by omega⟩
  intro a
  match a with
  | ⟨0, _⟩ => show win0_4.index _ (0 : Fin 2) * 1 ≤ (i 0).val ∧ (i 0).val < win0_4.index _ (0 : Fin 2) * 1 + 1; rw [e0]; omega
  | ⟨1, _⟩ => show win0_4.index _ (1 : Fin 2) * 1024 ≤ (i 1).val ∧ (i 1).val < win0_4.index _ (1 : Fin 2) * 1024 + 1024; rw [e1]; show (8 * ((i 1).val / 1024) + 7) / 8 * 1024 ≤ (i 1).val ∧ (i 1).val < (8 * ((i 1).val / 1024) + 7) / 8 * 1024 + 1024; omega

/-- THE ARRAY after the run is the specification's row of the argument arrays. -/
theorem final_4 (c : Dev nD) : (dats m 0 c).arrAt 4 cfg0.N = Cert.Spec.lowerRetRow (V m c main_arg1) (V m c main_arg2) :=
  (dats m 0 c).arrAt_eq_of_cover 4 _ (fun t _ => flushed_4 m c t) cover_4

/-- Where an element of output window 5's block at point `t` sits in its array: row 0, column `1024 (t / 8) + ` its column. -/
theorem emb_5 (t : Fin cfg0.N) (y : S1x1024.Idx) :
    ((cfg0.win 5).blk t).view.emb y = ValueIdx.ix2 (0 : Fin 1) (⟨1024 * (blkRow t).val + (y 1).val, by have := ValueIdx.idx2_lt1 y; have := (blkRow t).isLt; omega⟩ : Fin 8192) := by
  obtain ⟨-, -, -, -, e0, e1, -, -, -, -⟩ := index_rows t
  funext a; apply Fin.ext
  match a with
  | ⟨0, _⟩ => show win0_5.index t (0 : Fin 2) * 1 + 1 * (y 0).val = 0; have hj : (y 0).val < 1 := (y 0).isLt; omega
  | ⟨1, _⟩ => show win0_5.index t (1 : Fin 2) * 1024 + 1 * (y 1).val = 1024 * (t.val / 8) + (y 1).val; omega

/-- WHAT POINT `t` WRITES BACK to output window 5's array is block `t` of the specification's row. -/
theorem flushed_5 (c : Dev nD) (t : Fin cfg0.N) :
    (dats m 0 c).flushed 5 t = ((cfg0.win 5).blk t).view.read (Elt F) (Cert.Spec.upperRetRow (V m c main_arg1) (V m c main_arg2)) := by
  show (cfg0.win 5).cut (grid0.coords t) ((dats m 0 c).after 5 t) = _
  rw [after_5]
  funext y
  show k0_pay12 (loBlk m c t) (upBlk m c t) y = Cert.Spec.upperRet (V m c main_arg1 (((cfg0.win 5).blk t).view.emb y)) (V m c main_arg2 (((cfg0.win 5).blk t).view.emb y))
  rw [emb_5 t y]
  rfl

/-- An index of the array is in point `t`'s block iff each coordinate is in the block's range on its axis. -/
theorem mem_blk_5 (t : Fin cfg0.N) (i : S1x8192.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v0_2).slice (win0_5.rect t)).set ↔ _
  rw [View.set_slice_whole, Rect.mem_set_unit]
  exact Iff.rfl

/-- Every entry of the row is in the block of the LAST point of its row-block, which writes back. -/
theorem cover_5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 64 := N_0
  refine ⟨⟨8 * ((i 1).val / 1024) + 7, by omega⟩, (flush0_5 _).mpr (by show (8 * ((i 1).val / 1024) + 7) % 8 = 7; omega), ?_⟩
  rw [mem_blk_5]
  obtain ⟨-, -, -, -, e0, e1, -, -, -, -⟩ := index_rows ⟨8 * ((i 1).val / 1024) + 7, by omega⟩
  intro a
  match a with
  | ⟨0, _⟩ => show win0_5.index _ (0 : Fin 2) * 1 ≤ (i 0).val ∧ (i 0).val < win0_5.index _ (0 : Fin 2) * 1 + 1; rw [e0]; omega
  | ⟨1, _⟩ => show win0_5.index _ (1 : Fin 2) * 1024 ≤ (i 1).val ∧ (i 1).val < win0_5.index _ (1 : Fin 2) * 1024 + 1024; rw [e1]; show (8 * ((i 1).val / 1024) + 7) / 8 * 1024 ≤ (i 1).val ∧ (i 1).val < (8 * ((i 1).val / 1024) + 7) / 8 * 1024 + 1024; omega

/-- THE ARRAY after the run is the specification's row of the argument arrays. -/
theorem final_5 (c : Dev nD) : (dats m 0 c).arrAt 5 cfg0.N = Cert.Spec.upperRetRow (V m c main_arg1) (V m c main_arg2) :=
  (dats m 0 c).arrAt_eq_of_cover 5 _ (fun t _ => flushed_5 m c t) cover_5

/-- Where an element of output window 6's block at point `t` sits in its array: row 0, column `1024 (t / 8) + ` its column. -/
theorem emb_6 (t : Fin cfg0.N) (y : S1x1024.Idx) :
    ((cfg0.win 6).blk t).view.emb y = ValueIdx.ix2 (0 : Fin 1) (⟨1024 * (blkRow t).val + (y 1).val, by have := ValueIdx.idx2_lt1 y; have := (blkRow t).isLt; omega⟩ : Fin 8192) := by
  obtain ⟨-, -, -, -, -, -, e0, e1, -, -⟩ := index_rows t
  funext a; apply Fin.ext
  match a with
  | ⟨0, _⟩ => show win0_6.index t (0 : Fin 2) * 1 + 1 * (y 0).val = 0; have hj : (y 0).val < 1 := (y 0).isLt; omega
  | ⟨1, _⟩ => show win0_6.index t (1 : Fin 2) * 1024 + 1 * (y 1).val = 1024 * (t.val / 8) + (y 1).val; omega

/-- WHAT POINT `t` WRITES BACK to output window 6's array is block `t` of the specification's row. -/
theorem flushed_6 (c : Dev nD) (t : Fin cfg0.N) :
    (dats m 0 c).flushed 6 t = ((cfg0.win 6).blk t).view.read (Elt F) ((Cert.Spec.lowerBiasRow (F := F))) := by
  show (cfg0.win 6).cut (grid0.coords t) ((dats m 0 c).after 6 t) = _
  rw [after_6]
  funext y
  show k0_pay13 (F := F) y = (Cert.Spec.zero : F .f32)
  rfl

/-- An index of the array is in point `t`'s block iff each coordinate is in the block's range on its axis. -/
theorem mem_blk_6 (t : Fin cfg0.N) (i : S1x8192.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v0_3).slice (win0_6.rect t)).set ↔ _
  rw [View.set_slice_whole, Rect.mem_set_unit]
  exact Iff.rfl

/-- Every entry of the row is in the block of the LAST point of its row-block, which writes back. -/
theorem cover_6 (i : S1x8192.Idx) : ∃ t : Fin cfg0.N, (cfg0.win 6).flush t = true ∧ i ∈ ((cfg0.win 6).blk t).view.set := by
  have hi0 : (i 0).val < 1 := (i 0).isLt
  have hi1 : (i 1).val < 8192 := (i 1).isLt
  have hN : cfg0.N = 64 := N_0
  refine ⟨⟨8 * ((i 1).val / 1024) + 7, by omega⟩, (flush0_6 _).mpr (by show (8 * ((i 1).val / 1024) + 7) % 8 = 7; omega), ?_⟩
  rw [mem_blk_6]
  obtain ⟨-, -, -, -, -, -, e0, e1, -, -⟩ := index_rows ⟨8 * ((i 1).val / 1024) + 7, by omega⟩
  intro a
  match a with
  | ⟨0, _⟩ => show win0_6.index _ (0 : Fin 2) * 1 ≤ (i 0).val ∧ (i 0).val < win0_6.index _ (0 : Fin 2) * 1 + 1; rw [e0]; omega
  | ⟨1, _⟩ => show win0_6.index _ (1 : Fin 2) * 1024 ≤ (i 1).val ∧ (i 1).val < win0_6.index _ (1 : Fin 2) * 1024 + 1024; rw [e1]; show (8 * ((i 1).val / 1024) + 7) / 8 * 1024 ≤ (i 1).val ∧ (i 1).val < (8 * ((i 1).val / 1024) + 7) / 8 * 1024 + 1024; omega

/-- THE ARRAY after the run is the specification's row of the argument arrays. -/
theorem final_6 (c : Dev nD) : (dats m 0 c).arrAt 6 cfg0.N = (Cert.Spec.lowerBiasRow (F := F)) :=
  (dats m 0 c).arrAt_eq_of_cover 6 _ (fun t _ => flushed_6 m c t) cover_6

/-- Where an element of output window 7's block at point `t` sits in its array: row 0, column `1024 (t / 8) + ` its column. -/
theorem emb_7 (t : Fin cfg0.N) (y : S1x1024.Idx) :
    ((cfg0.win 7).blk t).view.emb y = ValueIdx.ix2 (0 : Fin 1) (⟨1024 * (blkRow t).val + (y 1).val, by have := ValueIdx.idx2_lt1 y; have := (blkRow t).isLt; omega⟩ : Fin 8192) := by
  obtain ⟨-, -, -, -, -, -, -, -, e0, e1⟩ := index_rows t
  funext a; apply Fin.ext
  match a with
  | ⟨0, _⟩ => show win0_7.index t (0 : Fin 2) * 1 + 1 * (y 0).val = 0; have hj : (y 0).val < 1 := (y 0).isLt; omega
  | ⟨1, _⟩ => show win0_7.index t (1 : Fin 2) * 1024 + 1 * (y 1).val = 1024 * (t.val / 8) + (y 1).val; omega

/-- WHAT POINT `t` WRITES BACK to output window 7's array is block `t` of the specification's row. -/
theorem flushed_7 (c : Dev nD) (t : Fin cfg0.N) :
    (dats m 0 c).flushed 7 t = ((cfg0.win 7).blk t).view.read (Elt F) (Cert.Spec.upperBiasRow (V m c main_arg1) (V m c main_arg2)) := by
  show (cfg0.win 7).cut (grid0.coords t) ((dats m 0 c).after 7 t) = _
  rw [after_7]
  funext y
  show k0_pay14 (loBlk m c t) (upBlk m c t) y = Cert.Spec.upperBias (V m c main_arg1 (((cfg0.win 7).blk t).view.emb y)) (V m c main_arg2 (((cfg0.win 7).blk t).view.emb y))
  rw [emb_7 t y]
  rfl

/-- An index of the array is in point `t`'s block iff each coordinate is in the block's range on its axis. -/
theorem mem_blk_7 (t : Fin cfg0.N) (i : S1x8192.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v0_4).slice (win0_7.rect t)).set ↔ _
  rw [View.set_slice_whole, Rect.mem_set_unit]
  exact Iff.rfl

/-- Every entry of the row is in the block of the LAST point of its row-block, which writes back. -/
theorem cover_7 (i : S1x8192.Idx) : ∃ t : Fin cfg0.N, (cfg0.win 7).flush t = true ∧ i ∈ ((cfg0.win 7).blk t).view.set := by
  have hi0 : (i 0).val < 1 := (i 0).isLt
  have hi1 : (i 1).val < 8192 := (i 1).isLt
  have hN : cfg0.N = 64 := N_0
  refine ⟨⟨8 * ((i 1).val / 1024) + 7, by omega⟩, (flush0_7 _).mpr (by show (8 * ((i 1).val / 1024) + 7) % 8 = 7; omega), ?_⟩
  rw [mem_blk_7]
  obtain ⟨-, -, -, -, -, -, -, -, e0, e1⟩ := index_rows ⟨8 * ((i 1).val / 1024) + 7, by omega⟩
  intro a
  match a with
  | ⟨0, _⟩ => show win0_7.index _ (0 : Fin 2) * 1 ≤ (i 0).val ∧ (i 0).val < win0_7.index _ (0 : Fin 2) * 1 + 1; rw [e0]; omega
  | ⟨1, _⟩ => show win0_7.index _ (1 : Fin 2) * 1024 ≤ (i 1).val ∧ (i 1).val < win0_7.index _ (1 : Fin 2) * 1024 + 1024; rw [e1]; show (8 * ((i 1).val / 1024) + 7) / 8 * 1024 ≤ (i 1).val ∧ (i 1).val < (8 * ((i 1).val / 1024) + 7) / 8 * 1024 + 1024; omega

/-- THE ARRAY after the run is the specification's row of the argument arrays. -/
theorem final_7 (c : Dev nD) : (dats m 0 c).arrAt 7 cfg0.N = Cert.Spec.upperBiasRow (V m c main_arg1) (V m c main_arg2) :=
  (dats m 0 c).arrAt_eq_of_cover 7 _ (fun t _ => flushed_7 m c t) cover_7

end Cert.KernelIdeal.Body

end
-- ==== Proof.KI.ValueTiles.lean ====
/-
  The two weight matrices after the run. Tile (row-block, column-block) of each is written at every point and written
  back at once: the diagonal segment — entry (p, q) of the tile is the row's weight at column q when p = q, zero otherwise —
  where row-block = column-block, and zero elsewhere. Entry (r, c) of the matrix lies in tile (r / 1024, c / 1024) at
  (r % 1024, c % 1024), and r = c exactly when the two block numbers agree and the two offsets agree: so the 64 tiles
  assemble the diagonal matrix of the weights.
-/
import proofs.«158999_j2800318677430_2_alg».proof.Proof.KI.Data
import proofs.«158999_j2800318677430_2_alg».proof.Proof.Spec
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The tiles' block indices are the row-block and the column-block. -/
theorem index_tiles : ∀ t : Fin cfg0.N, win0_8.index t (0 : Fin 2) = t.val / 8 ∧ win0_8.index t (1 : Fin 2) = t.val % 8
    ∧ win0_9.index t (0 : Fin 2) = t.val / 8 ∧ win0_9.index t (1 : Fin 2) = t.val % 8 :=
  (by decide +kernel : ∀ t : Fin grid0.N, _)

/-- Two numbers below 2^32 are equal iff their 32-bit words are. -/
theorem ofNat32_beq (a b : ℕ) (ha : a < 1024) (hb : b < 1024) : (BitVec.ofNat 32 a == BitVec.ofNat 32 b) = decide (a = b) := by
  by_cases h : a = b
  · subst h; simp
  · have : BitVec.ofNat 32 a ≠ BitVec.ofNat 32 b := fun e => h (by
      have := congrArg BitVec.toNat e
      rw [BitVec.toNat_ofNat, BitVec.toNat_ofNat, Nat.mod_eq_of_lt (by omega), Nat.mod_eq_of_lt (by omega)] at this
      exact this)
    simp [h, this]

/-- The mask of a tile: row number = column number. -/
theorem pay1_apply (p q : Fin 1024) : k0_pay1 (ix2 p q) = if p.val = q.val then 1#1 else 0#1 := by
  unfold k0_pay1
  show IntOp.cmpi .eq (broadcastTo S1024x1024 (iota .tc S1024x1 32 [0] iota_S1024x1_d0_w32) broadcasts_S1024x1_S1024x1024 (ix2 p q))
      (broadcastTo S1024x1024 (iota .tc S1x1024 32 [1] iota_S1x1024_d1_w32) broadcasts_S1x1024_S1024x1024 (ix2 p q)) = _
  rw [broadcastTo_apply _ broadcasts_S1024x1_S1024x1024 (ix2 p q) (ix2 p (0 : Fin 1)) (fun a => by match a with | ⟨0, _⟩ => rfl | ⟨1, _⟩ => rfl),
    broadcastTo_apply _ broadcasts_S1x1024_S1024x1024 (ix2 p q) (ix2 (0 : Fin 1) q) (fun a => by match a with | ⟨0, _⟩ => rfl | ⟨1, _⟩ => rfl),
    iota_single_apply, iota_single_apply]
  show BitVec.ofBool (BitVec.ofNat 32 p.val == BitVec.ofNat 32 q.val) = _
  rw [ofNat32_beq _ _ p.isLt q.isLt]
  by_cases h : p.val = q.val <;> simp [h]

/-- A row copied into every row of a tile and masked by the diagonal: the row's entry `q` at `(q, q)`, zero elsewhere. -/
theorem diag_tile_apply (v : FVec F S1x1024 .f32) (p q : Fin 1024) :
    select k0_pay1 (broadcastTo S1024x1024 (shapeCast S1x1024 v shapeCasts_S1x1024_S1x1024) broadcasts_S1x1024_S1024x1024)
      (broadcast S1024x1024 (Scalar.ofBits .f32 0x00000000#32 : F .f32)) (ix2 p q)
    = if p.val = q.val then v (ix2 (0 : Fin 1) q) else Cert.Spec.zero := by
  rw [select_apply, pay1_apply, shapeCast_self,
    broadcastTo_apply _ broadcasts_S1x1024_S1024x1024 (ix2 p q) (ix2 (0 : Fin 1) q) (fun a => by match a with | ⟨0, _⟩ => rfl | ⟨1, _⟩ => rfl)]
  by_cases h : p.val = q.val
  · rw [if_pos h, if_pos h, select_one]
  · rw [if_neg h, if_neg h, select_zero]; rfl

theorem pay2_apply (v : FVec F S1x1024 .f32) (p q : Fin 1024) :
    k0_pay2 v (ix2 p q) = if p.val = q.val then v (ix2 (0 : Fin 1) q) else Cert.Spec.zero := diag_tile_apply v p q
theorem pay3_apply (v : FVec F S1x1024 .f32) (p q : Fin 1024) :
    k0_pay3 v (ix2 p q) = if p.val = q.val then v (ix2 (0 : Fin 1) q) else Cert.Spec.zero := diag_tile_apply v p q

/-- Where an element of a tile at point `t` sits in the matrix. -/
theorem emb_8 (t : Fin cfg0.N) (p q : Fin 1024) :
    ((cfg0.win 8).blk t).view.emb (ix2 p q)
      = ix2 (⟨1024 * (t.val / 8) + p.val, by have := t.isLt; have h : cfg0.N = 64 := N_0; omega⟩ : Fin 8192)
            (⟨1024 * (t.val % 8) + q.val, by omega⟩ : Fin 8192) := by
  obtain ⟨e0, e1, -, -⟩ := index_tiles t
  funext a; apply Fin.ext
  match a with
  | ⟨0, _⟩ => show win0_8.index t (0 : Fin 2) * 1024 + 1 * p.val = 1024 * (t.val / 8) + p.val; omega
  | ⟨1, _⟩ => show win0_8.index t (1 : Fin 2) * 1024 + 1 * q.val = 1024 * (t.val % 8) + q.val; omega
theorem emb_9 (t : Fin cfg0.N) (p q : Fin 1024) :
    ((cfg0.win 9).blk t).view.emb (ix2 p q)
      = ix2 (⟨1024 * (t.val / 8) + p.val, by have := t.isLt; have h : cfg0.N = 64 := N_0; omega⟩ : Fin 8192)
            (⟨1024 * (t.val % 8) + q.val, by omega⟩ : Fin 8192) := by
  obtain ⟨-, -, e0, e1⟩ := index_tiles t
  funext a; apply Fin.ext
  match a with
  | ⟨0, _⟩ => show win0_9.index t (0 : Fin 2) * 1024 + 1 * p.val = 1024 * (t.val / 8) + p.val; omega
  | ⟨1, _⟩ => show win0_9.index t (1 : Fin 2) * 1024 + 1 * q.val = 1024 * (t.val % 8) + q.val; omega

/-- THE TILE LAW. Tile (t / 8, t % 8) of the diagonal matrix of a row `d`, at (p, q): on the diagonal of blocks the entry
    `d (1024 (t / 8) + q)` where p = q, and zero everywhere else. -/
theorem diag_tile (d : Cert.Spec.Row.Idx → F .f32) (t : ℕ) (ht : t < 64) (p q : Fin 1024) :
    Cert.Spec.diag d (ix2 (⟨1024 * (t / 8) + p.val, by omega⟩ : Fin 8192) (⟨1024 * (t % 8) + q.val, by omega⟩ : Fin 8192))
      = if t % 9 = 0 then (if p.val = q.val then d (ix2 (0 : Fin 1) (⟨1024 * (t / 8) + q.val, by omega⟩ : Fin 8192)) else Cert.Spec.zero)
        else Cert.Spec.zero := by
  unfold Cert.Spec.diag
  show (if 1024 * (t / 8) + p.val = 1024 * (t % 8) + q.val then d (ix2 (0 : Fin 1) (⟨1024 * (t % 8) + q.val, _⟩ : Fin 8192)) else Cert.Spec.zero) = _
  by_cases h1 : t % 9 = 0
  · have hb : t / 8 = t % 8 := by omega
    rw [if_pos h1]
    by_cases h : p.val = q.val
    · rw [if_pos h, if_pos (by omega)]
      exact congrArg d (congrArg (ix2 (0 : Fin 1)) (Fin.ext (by show 1024 * (t % 8) + q.val = 1024 * (t / 8) + q.val; omega)))
    · rw [if_neg h, if_neg (by omega)]
  · have hb : t / 8 ≠ t % 8 := by omega
    rw [if_neg h1, if_neg (by have := p.isLt; have := q.isLt; omega)]

/-- WHAT POINT `t` WRITES BACK to the lower-weight matrix is tile `t` of the specification's diagonal matrix. -/
theorem flushed_8 (c : Dev nD) (t : Fin cfg0.N) :
    (dats m 0 c).flushed 8 t = ((cfg0.win 8).blk t).view.read (Elt F) (Cert.Spec.lowerWeights (V m c main_arg2)) := by
  have hN : t.val < 64 := lt_of_lt_of_eq t.isLt (show cfg0.N = 64 from N_0)
  show (cfg0.win 8).cut (grid0.coords t) ((dats m 0 c).after 8 t) = _
  rw [after_8]
  funext y
  obtain ⟨p, q, rfl⟩ : ∃ (p q : Fin 1024), y = ix2 p q := ⟨y 0, y 1, eq_ix2 y⟩
  show tileLo t (upBlk m c t) (ix2 p q) = Cert.Spec.lowerWeights (V m c main_arg2) (((cfg0.win 8).blk t).view.emb (ix2 p q))
  rw [emb_8 t p q]
  unfold Cert.Spec.lowerWeights
  rw [diag_tile _ t.val hN p q]
  unfold tileLo
  by_cases h1 : t.val % 9 = 0
  · rw [if_pos h1, if_pos h1, pay2_apply]; rfl
  · rw [if_neg h1, if_neg h1]; rfl

/-- WHAT POINT `t` WRITES BACK to the upper-weight matrix is tile `t` of the specification's diagonal matrix. -/
theorem flushed_9 (c : Dev nD) (t : Fin cfg0.N) :
    (dats m 0 c).flushed 9 t = ((cfg0.win 9).blk t).view.read (Elt F) (Cert.Spec.upperWeights (V m c main_arg1) (V m c main_arg2)) := by
  have hN : t.val < 64 := lt_of_lt_of_eq t.isLt (show cfg0.N = 64 from N_0)
  show (cfg0.win 9).cut (grid0.coords t) ((dats m 0 c).after 9 t) = _
  rw [after_9]
  funext y
  obtain ⟨p, q, rfl⟩ : ∃ (p q : Fin 1024), y = ix2 p q := ⟨y 0, y 1, eq_ix2 y⟩
  show tileUp t (loBlk m c t) (upBlk m c t) (ix2 p q) = Cert.Spec.upperWeights (V m c main_arg1) (V m c main_arg2) (((cfg0.win 9).blk t).view.emb (ix2 p q))
  rw [emb_9 t p q]
  unfold Cert.Spec.upperWeights
  rw [diag_tile _ t.val hN p q]
  unfold tileUp
  by_cases h1 : t.val % 9 = 0
  · rw [if_pos h1, if_pos h1, pay3_apply]; rfl
  · rw [if_neg h1, if_neg h1]; rfl

theorem mem_blk_8 (t : Fin cfg0.N) (i : S8192x8192.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v0_5).slice (win0_8.rect t)).set ↔ _
  rw [View.set_slice_whole, Rect.mem_set_unit]
  exact Iff.rfl
theorem mem_blk_9 (t : Fin cfg0.N) (i : S8192x8192.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v0_6).slice (win0_9.rect t)).set ↔ _
  rw [View.set_slice_whole, Rect.mem_set_unit]
  exact Iff.rfl

/-- Every entry of the matrix is in the tile of its row-block and column-block. -/
theorem cover_8 (i : S8192x8192.Idx) : ∃ t : Fin cfg0.N, (cfg0.win 8).flush t = true ∧ i ∈ ((cfg0.win 8).blk t).view.set := by
  have hi0 : (i 0).val < 8192 := (i 0).isLt
  have hi1 : (i 1).val < 8192 := (i 1).isLt
  have hN : cfg0.N = 64 := N_0
  refine ⟨⟨8 * ((i 0).val / 1024) + (i 1).val / 1024, by omega⟩, flush0_8 _, ?_⟩
  rw [mem_blk_8]
  obtain ⟨e0, e1, -, -⟩ := index_tiles ⟨8 * ((i 0).val / 1024) + (i 1).val / 1024, by omega⟩
  intro a
  match a with
  | ⟨0, _⟩ => show win0_8.index _ (0 : Fin 2) * 1024 ≤ (i 0).val ∧ (i 0).val < win0_8.index _ (0 : Fin 2) * 1024 + 1024; rw [e0]; show (8 * ((i 0).val / 1024) + (i 1).val / 1024) / 8 * 1024 ≤ (i 0).val ∧ (i 0).val < (8 * ((i 0).val / 1024) + (i 1).val / 1024) / 8 * 1024 + 1024; omega
  | ⟨1, _⟩ => show win0_8.index _ (1 : Fin 2) * 1024 ≤ (i 1).val ∧ (i 1).val < win0_8.index _ (1 : Fin 2) * 1024 + 1024; rw [e1]; show (8 * ((i 0).val / 1024) + (i 1).val / 1024) % 8 * 1024 ≤ (i 1).val ∧ (i 1).val < (8 * ((i 0).val / 1024) + (i 1).val / 1024) % 8 * 1024 + 1024; omega
theorem cover_9 (i : S8192x8192.Idx) : ∃ t : Fin cfg0.N, (cfg0.win 9).flush t = true ∧ i ∈ ((cfg0.win 9).blk t).view.set := by
  have hi0 : (i 0).val < 8192 := (i 0).isLt
  have hi1 : (i 1).val < 8192 := (i 1).isLt
  have hN : cfg0.N = 64 := N_0
  refine ⟨⟨8 * ((i 0).val / 1024) + (i 1).val / 1024, by omega⟩, flush0_9 _, ?_⟩
  rw [mem_blk_9]
  obtain ⟨-, -, e0, e1⟩ := index_tiles ⟨8 * ((i 0).val / 1024) + (i 1).val / 1024, by omega⟩
  intro a
  match a with
  | ⟨0, _⟩ => show win0_9.index _ (0 : Fin 2) * 1024 ≤ (i 0).val ∧ (i 0).val < win0_9.index _ (0 : Fin 2) * 1024 + 1024; rw [e0]; show (8 * ((i 0).val / 1024) + (i 1).val / 1024) / 8 * 1024 ≤ (i 0).val ∧ (i 0).val < (8 * ((i 0).val / 1024) + (i 1).val / 1024) / 8 * 1024 + 1024; omega
  | ⟨1, _⟩ => show win0_9.index _ (1 : Fin 2) * 1024 ≤ (i 1).val ∧ (i 1).val < win0_9.index _ (1 : Fin 2) * 1024 + 1024; rw [e1]; show (8 * ((i 0).val / 1024) + (i 1).val / 1024) % 8 * 1024 ≤ (i 1).val ∧ (i 1).val < (8 * ((i 0).val / 1024) + (i 1).val / 1024) % 8 * 1024 + 1024; omega

/-- THE MATRICES after the run are the specification's diagonal matrices of the argument rows. -/
theorem final_8 (c : Dev nD) : (dats m 0 c).arrAt 8 cfg0.N = Cert.Spec.lowerWeights (V m c main_arg2) :=
  (dats m 0 c).arrAt_eq_of_cover 8 _ (fun t _ => flushed_8 m c t) cover_8
theorem final_9 (c : Dev nD) : (dats m 0 c).arrAt 9 cfg0.N = Cert.Spec.upperWeights (V m c main_arg1) (V m c main_arg2) :=
  (dats m 0 c).arrAt_eq_of_cover 9 _ (fun t _ => flushed_9 m c t) cover_9

end Cert.KernelIdeal.Body

end
-- ==== Proof.KI.ValueRun.lean ====
/-
  The idealized kernel's run, read: every weakly fair execution of @main terminates with the seven result arrays at the
  specification's functions of the three argument rows, and the arguments unchanged.
-/
import proofs.«158999_j2800318677430_2_alg».proof.Proof.KI.Body
import proofs.«158999_j2800318677430_2_alg».proof.Proof.KI.ValueRows
import proofs.«158999_j2800318677430_2_alg».proof.Proof.KI.ValueTiles

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v0_0) = Cert.Spec.xOut (F := F) (m ((c.tc : Thread nD τ).loc main_arg0))
      ∧ r.2.mem ((c.tc : Thread nD τ).loc main_v0_1) = Cert.Spec.lowerRetRow (F := F) (m ((c.tc : Thread nD τ).loc main_arg1)) (m ((c.tc : Thread nD τ).loc main_arg2))
      ∧ r.2.mem ((c.tc : Thread nD τ).loc main_v0_2) = Cert.Spec.upperRetRow (F := F) (m ((c.tc : Thread nD τ).loc main_arg1)) (m ((c.tc : Thread nD τ).loc main_arg2))
      ∧ r.2.mem ((c.tc : Thread nD τ).loc main_v0_5) = Cert.Spec.lowerWeights (F := F) (m ((c.tc : Thread nD τ).loc main_arg2))
      ∧ r.2.mem ((c.tc : Thread nD τ).loc main_v0_6) = Cert.Spec.upperWeights (F := F) (m ((c.tc : Thread nD τ).loc main_arg1)) (m ((c.tc : Thread nD τ).loc main_arg2))
      ∧ r.2.mem ((c.tc : Thread nD τ).loc main_v0_3) = Cert.Spec.lowerBiasRow (F := F)
      ∧ r.2.mem ((c.tc : Thread nD τ).loc main_v0_4) = Cert.Spec.upperBiasRow (F := F) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 3).trans (final_3 m c), ((h c).1 4).trans (final_4 m c), ((h c).1 5).trans (final_5 m c),
      ((h c).1 8).trans (final_8 m c), ((h c).1 9).trans (final_9 m c), ((h c).1 6).trans (final_6 m c), ((h c).1 7).trans (final_7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Body

end
-- ==== Proof.RefRun.lean ====
/-
  The reference program as a straight line.

  The reference's @main is forty operations, twelve of them calls of private functions (the rectifier, seven
  spellings of an elementwise choice, and two copies of the function that spreads a vector onto the diagonal of a
  square matrix, each of which calls one more choice). A call means its callee's body run on the operands, so with
  every callee's operations written at its call site, over the buffers that call names, @main is ONE list of
  seventy-eight host operations, and its run is the run of a straight line: every weakly fair execution
  terminates, and each buffer ends at the fold of the operations' results over the contents at launch.
-/
import proofs.«158999_j2800318677430_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- @main's seventy-eight operations in order, every call replaced by its callee's operations over that call's
    buffers: the rectifier is three (the zero, its broadcast, the maximum); a choice is one (the select), or three
    when a scalar branch is first converted to its own type and broadcast, or when both branches are scalars;
    the diagonal is thirteen (the zero, a padding by nothing, the two index grids, an integer zero, its broadcast,
    the sum, the comparison of the two grids, the vector broadcast to a column, a zero, and the inner choice's
    three: the column broadcast to the square, the zero broadcast to the square, the select). -/
abbrev ops : List (HloOp τ sig (Elt F)) :=
  [
    TRef.nullary main_call0.cst (constant S_ .f32 0x00000000#32),
    TRef.unary main_call0.cst main_call0.v0 (broadcastInDim S1x8192 ![] bcast_S_S1x8192),
    TRef.binary (.of main_arg0 : TRef sig ⟨S1x8192, .f32⟩) main_call0.v0 main_call0.v1 maximumf,
    nullary main_cst (constant S_ .f32 0x00000000#32),
    unary main_cst main_v1 (broadcastInDim S1x8192 ![] bcast_S_S1x8192 : (⟨S_, .f32⟩ : BufTy).Contents (Elt F) → (⟨S1x8192, .f32⟩ : BufTy).Contents (Elt F)),
    binary main_arg2 main_v1 main_v2 (cmpf .ole : (⟨S1x8192, .f32⟩ : BufTy).Contents (Elt F) → (⟨S1x8192, .f32⟩ : BufTy).Contents (Elt F) → (⟨S1x8192, .i1⟩ : BufTy).Contents (Elt F)),
    nullary main_cst_0 (constant S_ .f32 0x00000000#32),
    unary main_cst_0 main_v3 (broadcastInDim S1x8192 ![] bcast_S_S1x8192 : (⟨S_, .f32⟩ : BufTy).Contents (Elt F) → (⟨S1x8192, .f32⟩ : BufTy).Contents (Elt F)),
    binary main_arg1 main_v3 main_v4 (cmpf .oge : (⟨S1x8192, .f32⟩ : BufTy).Contents (Elt F) → (⟨S1x8192, .f32⟩ : BufTy).Contents (Elt F) → (⟨S1x8192, .i1⟩ : BufTy).Contents (Elt F)),
    unary main_v2 main_v5 (noti : (⟨S1x8192, .i1⟩ : BufTy).Contents (Elt F) → (⟨S1x8192, .i1⟩ : BufTy).Contents (Elt F)),
    unary main_v4 main_v6 (noti : (⟨S1x8192, .i1⟩ : BufTy).Contents (Elt F) → (⟨S1x8192, .i1⟩ : BufTy).Contents (Elt F)),
    binary main_v5 main_v6 main_v7 (andi : (⟨S1x8192, .i1⟩ : BufTy).Contents (Elt F) → (⟨S1x8192, .i1⟩ : BufTy).Contents (Elt F) → (⟨S1x8192, .i1⟩ : BufTy).Contents (Elt F)),
    binary main_arg2 main_arg1 main_v8 (subf : (⟨S1x8192, .f32⟩ : BufTy).Contents (Elt F) → (⟨S1x8192, .f32⟩ : BufTy).Contents (Elt F) → (⟨S1x8192, .f32⟩ : BufTy).Contents (Elt F)),
    nullary main_cst_1 (constant S_ .f32 0x3F800000#32),
    unary main_cst_1 main_v9 (broadcastInDim S1x8192 ![] bcast_S_S1x8192 : (⟨S_, .f32⟩ : BufTy).Contents (Elt F) → (⟨S1x8192, .f32⟩ : BufTy).Contents (Elt F)),
    TRef.ternary (.of main_v7 : TRef sig ⟨S1x8192, .i1⟩) (.of main_v8 : TRef sig ⟨S1x8192, .f32⟩) (.of main_v9 : TRef sig ⟨S1x8192, .f32⟩) main_call1.v0 select,
    binary main_arg2 main_v10 main_v11 (Host.divf : (⟨S1x8192, .f32⟩ : BufTy).Contents (Elt F) → (⟨S1x8192, .f32⟩ : BufTy).Contents (Elt F) → (⟨S1x8192, .f32⟩ : BufTy).Contents (Elt F)),
    nullary main_cst_2 (constant S_ .f32 0x00000000#32),
    unary main_cst_2 main_v12 (broadcastInDim S1x8192 ![] bcast_S_S1x8192 : (⟨S_, .f32⟩ : BufTy).Contents (Elt F) → (⟨S1x8192, .f32⟩ : BufTy).Contents (Elt F)),
    TRef.ternary (.of main_v7 : TRef sig ⟨S1x8192, .i1⟩) (.of main_v11 : TRef sig ⟨S1x8192, .f32⟩) (.of main_v12 : TRef sig ⟨S1x8192, .f32⟩) main_call2.v0 select,
    nullary main_cst_3 (constant S_ .f32 0x00000000#32),
    TRef.unary (.of main_cst_3 : TRef sig ⟨S_, .f32⟩) main_call3.v0 id,
    TRef.unary main_call3.v0 main_call3.v1 (broadcastInDim S1x8192 ![] bcast_S_S1x8192),
    TRef.ternary (.of main_v2 : TRef sig ⟨S1x8192, .i1⟩) main_call3.v1 (.of main_arg1 : TRef sig ⟨S1x8192, .f32⟩) main_call3.v2 select,
    binary main_v13 main_arg2 main_v15 (mulf : (⟨S1x8192, .f32⟩ : BufTy).Contents (Elt F) → (⟨S1x8192, .f32⟩ : BufTy).Contents (Elt F) → (⟨S1x8192, .f32⟩ : BufTy).Contents (Elt F)),
    TRef.ternary (.of main_v4 : TRef sig ⟨S1x8192, .i1⟩) (.of main_arg2 : TRef sig ⟨S1x8192, .f32⟩) (.of main_v15 : TRef sig ⟨S1x8192, .f32⟩) main_call4.v0 select,
    nullary main_cst_4 (constant S_ .f32 0x00000000#32),
    TRef.unary (.of main_cst_4 : TRef sig ⟨S_, .f32⟩) main_call5.v0 id,
    TRef.unary main_call5.v0 main_call5.v1 (broadcastInDim S1x8192 ![] bcast_S_S1x8192),
    TRef.ternary (.of main_v2 : TRef sig ⟨S1x8192, .i1⟩) main_call5.v1 (.of main_v16 : TRef sig ⟨S1x8192, .f32⟩) main_call5.v2 select,
    nullary main_cst_5 (constant S_ .f32 0x00000000#32),
    nullary main_cst_6 (constant S_ .f32 0x3F800000#32),
    TRef.unary (.of main_cst_5 : TRef sig ⟨S_, .f32⟩) main_call6.v0 (broadcastInDim S1x8192 ![] bcast_S_S1x8192),
    TRef.unary (.of main_cst_6 : TRef sig ⟨S_, .f32⟩) main_call6.v1 (broadcastInDim S1x8192 ![] bcast_S_S1x8192),
    TRef.ternary (.of main_v2 : TRef sig ⟨S1x8192, .i1⟩) main_call6.v0 main_call6.v1 main_call6.v2 select,
    nullary main_cst_7 (constant S_ .f32 0x3F800000#32),
    TRef.unary (.of main_cst_7 : TRef sig ⟨S_, .f32⟩) main_call7.v0 id,
    TRef.unary main_call7.v0 main_call7.v1 (broadcastInDim S1x8192 ![] bcast_S_S1x8192),
    TRef.ternary (.of main_v4 : TRef sig ⟨S1x8192, .i1⟩) main_call7.v1 (.of main_v13 : TRef sig ⟨S1x8192, .f32⟩) main_call7.v2 select,
    nullary main_cst_8 (constant S_ .f32 0x00000000#32),
    TRef.unary (.of main_cst_8 : TRef sig ⟨S_, .f32⟩) main_call8.v0 id,
    TRef.unary main_call8.v0 main_call8.v1 (broadcastInDim S1x8192 ![] bcast_S_S1x8192),
    TRef.ternary (.of main_v2 : TRef sig ⟨S1x8192, .i1⟩) main_call8.v1 (.of main_v19 : TRef sig ⟨S1x8192, .f32⟩) main_call8.v2 select,
    nullary main_cst_9 (constant S_ .f32 0x00000000#32),
    unary main_cst_9 main_v21 (broadcastInDim S1x8192 ![] bcast_S_S1x8192 : (⟨S_, .f32⟩ : BufTy).Contents (Elt F) → (⟨S1x8192, .f32⟩ : BufTy).Contents (Elt F)),
    binary main_v13 main_arg1 main_v22 (mulf : (⟨S1x8192, .f32⟩ : BufTy).Contents (Elt F) → (⟨S1x8192, .f32⟩ : BufTy).Contents (Elt F) → (⟨S1x8192, .f32⟩ : BufTy).Contents (Elt F)),
    nullary main_cst_10 (constant S_ .f32 0x00000000#32),
    TRef.unary (.of main_cst_10 : TRef sig ⟨S_, .f32⟩) main_call9.v0 id,
    TRef.unary main_call9.v0 main_call9.v1 (broadcastInDim S1x8192 ![] bcast_S_S1x8192),
    TRef.ternary (.of main_v7 : TRef sig ⟨S1x8192, .i1⟩) (.of main_v22 : TRef sig ⟨S1x8192, .f32⟩) main_call9.v1 main_call9.v2 select,
    reshape main_v18 main_v24 rfl shapeCasts_S1x8192_S8192,
    TRef.nullary main_call10.cst (constant S_ .f32 0x00000000#32),
    TRef.binary (.of main_v24 : TRef sig ⟨S8192, .f32⟩) main_call10.cst main_call10.v0 (fun x v => pad S8192 ![0] ![0] ![0] x v pads_S8192_S8192_000 h_S_),
    TRef.nullary main_call10.v1 (iotaInDim S8192x8192 32 0),
    TRef.nullary main_call10.v2 (iotaInDim S8192x8192 32 1),
    TRef.nullary main_call10.c (constantI S_ 32 0#32),
    TRef.unary main_call10.c main_call10.v3 (broadcastInDim S8192x8192 ![] bcast_S_S8192x8192),
    TRef.binary main_call10.v1 main_call10.v3 main_call10.v4 addi,
    TRef.binary main_call10.v4 main_call10.v2 main_call10.v5 (cmpi .eq),
    TRef.unary main_call10.v0 main_call10.v6 (broadcastInDim S8192x1 ![0] bcast_S8192_S8192x1_0),
    TRef.nullary main_call10.cst_0 (constant S_ .f32 0x00000000#32),
    TRef.unary main_call10.v6 main_call10.call0.v0 (broadcastInDim S8192x8192 ![0, 1] bcast_S8192x1_S8192x8192_0_1),
    TRef.unary main_call10.cst_0 main_call10.call0.v1 (broadcastInDim S8192x8192 ![] bcast_S_S8192x8192),
    TRef.ternary main_call10.v5 main_call10.call0.v0 main_call10.call0.v1 main_call10.call0.v2 select,
    reshape main_v20 main_v26 rfl shapeCasts_S1x8192_S8192,
    TRef.nullary main_call11.cst (constant S_ .f32 0x00000000#32),
    TRef.binary (.of main_v26 : TRef sig ⟨S8192, .f32⟩) main_call11.cst main_call11.v0 (fun x v => pad S8192 ![0] ![0] ![0] x v pads_S8192_S8192_000 h_S_),
    TRef.nullary main_call11.v1 (iotaInDim S8192x8192 32 0),
    TRef.nullary main_call11.v2 (iotaInDim S8192x8192 32 1),
    TRef.nullary main_call11.c (constantI S_ 32 0#32),
    TRef.unary main_call11.c main_call11.v3 (broadcastInDim S8192x8192 ![] bcast_S_S8192x8192),
    TRef.binary main_call11.v1 main_call11.v3 main_call11.v4 addi,
    TRef.binary main_call11.v4 main_call11.v2 main_call11.v5 (cmpi .eq),
    TRef.unary main_call11.v0 main_call11.v6 (broadcastInDim S8192x1 ![0] bcast_S8192_S8192x1_0),
    TRef.nullary main_call11.cst_0 (constant S_ .f32 0x00000000#32),
    TRef.unary main_call11.v6 main_call11.call0.v0 (broadcastInDim S8192x8192 ![0, 1] bcast_S8192x1_S8192x8192_0_1),
    TRef.unary main_call11.cst_0 main_call11.call0.v1 (broadcastInDim S8192x8192 ![] bcast_S_S8192x8192),
    TRef.ternary main_call11.v5 main_call11.call0.v0 main_call11.call0.v1 main_call11.call0.v2 select ]

/-- @main is that straight line: sequencing re-associates by computation, so each function's definition unfolded
    at its call and each call's record at its fields, the two sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., binary_bufs_sub ..,
    binary_bufs_sub .., nullary_bufs_sub .., unary_bufs_sub .., ternary_bufs_sub .., binary_bufs_sub .., nullary_bufs_sub ..,
    unary_bufs_sub .., ternary_bufs_sub .., nullary_bufs_sub .., unary_bufs_sub .., unary_bufs_sub .., ternary_bufs_sub ..,
    binary_bufs_sub .., ternary_bufs_sub .., nullary_bufs_sub .., unary_bufs_sub .., unary_bufs_sub .., ternary_bufs_sub ..,
    nullary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., binary_bufs_sub .., nullary_bufs_sub .., unary_bufs_sub ..,
    unary_bufs_sub .., ternary_bufs_sub .., reshape_bufs_sub .., nullary_bufs_sub .., binary_bufs_sub .., nullary_bufs_sub ..,
    nullary_bufs_sub .., nullary_bufs_sub .., unary_bufs_sub .., binary_bufs_sub .., binary_bufs_sub .., unary_bufs_sub ..,
    nullary_bufs_sub .., unary_bufs_sub .., unary_bufs_sub .., ternary_bufs_sub .., reshape_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..⟩

/-- At the compiled mesh, for any float values, from any memory with zero counters: every weakly fair execution
    of @main terminates, and every buffer ends at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefOut.lean ====
/-
  What each result buffer holds after the reference's straight line, as one term of the argument rows.

  The operations are named here as the program composes them: the comparisons of the bounds with the zero row, the
  crossing condition, the guarded divisor and the slope, each elementwise choice, and the function that spreads a
  vector onto the diagonal of a square matrix (two index grids compared, the vector broadcast along the rows, zero
  elsewhere). The fold of the seventy-eight operations at a result buffer IS the corresponding term of the
  contents of the argument buffers, by unfolding the fold: each operation rewrites only the buffer it writes.
-/
import proofs.«158999_j2800318677430_2_alg».proof.Proof.RefRun

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The zero row and the one row: a scalar constant broadcast to the row. -/
def zeroRow : FVec F S1x8192 .f32 := broadcastInDim S1x8192 ![] bcast_S_S1x8192 (constant S_ .f32 0x00000000#32)
def oneRow : FVec F S1x8192 .f32 := broadcastInDim S1x8192 ![] bcast_S_S1x8192 (constant S_ .f32 0x3F800000#32)

/-- `upper ≤ 0`, `lower ≥ 0`, and neither, elementwise. -/
def tDead (u : FVec F S1x8192 .f32) : IVec S1x8192 1 := cmpf .ole u zeroRow
def tActive (l : FVec F S1x8192 .f32) : IVec S1x8192 1 := cmpf .oge l zeroRow
def tCross (l u : FVec F S1x8192 .f32) : IVec S1x8192 1 := andi (noti (tDead u)) (noti (tActive l))

/-- The divisor `upper - lower` where crossing, one elsewhere; the slope `upper / divisor` where crossing, zero elsewhere. -/
def tDenom (l u : FVec F S1x8192 .f32) : FVec F S1x8192 .f32 := select (tCross l u) (subf u l) oneRow
def tSlope (l u : FVec F S1x8192 .f32) : FVec F S1x8192 .f32 :=
  select (tCross l u) (Host.divf u (tDenom l u)) zeroRow

/-- The seven results' rows (the two matrices' diagonals among them). -/
def tX (x : FVec F S1x8192 .f32) : FVec F S1x8192 .f32 := maximumf x zeroRow
def tLowerRet (l u : FVec F S1x8192 .f32) : FVec F S1x8192 .f32 := select (tDead u) zeroRow l
def tUpperRet (l u : FVec F S1x8192 .f32) : FVec F S1x8192 .f32 :=
  select (tDead u) zeroRow (select (tActive l) u (mulf (tSlope l u) u))
def tLowerW (u : FVec F S1x8192 .f32) : FVec F S1x8192 .f32 := select (tDead u) zeroRow oneRow
def tUpperW (l u : FVec F S1x8192 .f32) : FVec F S1x8192 .f32 :=
  select (tDead u) zeroRow (select (tActive l) oneRow (tSlope l u))
def tUpperBias (l u : FVec F S1x8192 .f32) : FVec F S1x8192 .f32 :=
  select (tCross l u) (mulf (tSlope l u) l) zeroRow

/-- A vector on the diagonal of a square matrix: the vector padded by nothing, broadcast to a column and then along
    the rows, chosen where the row grid (plus a zero grid) equals the column grid, zero elsewhere. -/
def tDiag (d : FVec F S8192 .f32) : FVec F S8192x8192 .f32 :=
  select
    (cmpi .eq
      (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] d (constant S_ .f32 0x00000000#32 : FVec F S_ .f32) pads_S8192_S8192_000 h_S_)))
    (broadcastInDim S8192x8192 ![] bcast_S_S8192x8192 (constant S_ .f32 0x00000000#32))

/-- A row as a vector. -/
def tFlat (v : FVec F S1x8192 .f32) : FVec F S8192 .f32 := shapeCast S8192 v shapeCasts_S1x8192_S8192

section Fold

-- the equations below do not depend on what the operations compute, only on which buffer each one writes: the
-- operations are kept folded
attribute [local irreducible] pad iotaInDim broadcastInDim shapeCast select cmpf cmpi addi andi noti subf mulf maximumf
  Host.divf constant constantI

variable (V : Valuation τ sig (Elt F))

theorem out_v0 : after ops V (main_v0 : DevRef τ sig) = tX (V (main_arg0 : DevRef τ sig)) := rfl

theorem out_v14 : after ops V (main_v14 : DevRef τ sig)
    = tLowerRet (V (main_arg1 : DevRef τ sig)) (V (main_arg2 : DevRef τ sig)) := rfl

theorem out_v17 : after ops V (main_v17 : DevRef τ sig)
    = tUpperRet (V (main_arg1 : DevRef τ sig)) (V (main_arg2 : DevRef τ sig)) := rfl

theorem out_v25 : after ops V (main_v25 : DevRef τ sig)
    = tDiag (tFlat (tLowerW (V (main_arg2 : DevRef τ sig)))) := rfl

theorem out_v27 : after ops V (main_v27 : DevRef τ sig)
    = tDiag (tFlat (tUpperW (V (main_arg1 : DevRef τ sig)) (V (main_arg2 : DevRef τ sig)))) := rfl

theorem out_v21 : after ops V (main_v21 : DevRef τ sig) = (zeroRow : FVec F S1x8192 .f32) := rfl

theorem out_v23 : after ops V (main_v23 : DevRef τ sig)
    = tUpperBias (V (main_arg1 : DevRef τ sig)) (V (main_arg2 : DevRef τ sig)) := rfl

theorem out_arg0 : after ops V (main_arg0 : DevRef τ sig) = V (main_arg0 : DevRef τ sig) := rfl

theorem out_arg1 : after ops V (main_arg1 : DevRef τ sig) = V (main_arg1 : DevRef τ sig) := rfl

theorem out_arg2 : after ops V (main_arg2 : DevRef τ sig) = V (main_arg2 : DevRef τ sig) := rfl

theorem out_arg3 : after ops V (main_arg3 : DevRef τ sig) = V (main_arg3 : DevRef τ sig) := rfl

end Fold

/-- At the compiled mesh, for any float values, from any memory with zero counters: every weakly fair execution of
    @main terminates with each result buffer at its term of the argument rows' contents at launch, and the
    arguments unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = tX (m ((c.tc : Thread nD τ).loc main_arg0))
      ∧ r.2.mem ((c.tc : Thread nD τ).loc main_v14)
          = tLowerRet (m ((c.tc : Thread nD τ).loc main_arg1)) (m ((c.tc : Thread nD τ).loc main_arg2))
      ∧ r.2.mem ((c.tc : Thread nD τ).loc main_v17)
          = tUpperRet (m ((c.tc : Thread nD τ).loc main_arg1)) (m ((c.tc : Thread nD τ).loc main_arg2))
      ∧ r.2.mem ((c.tc : Thread nD τ).loc main_v25) = tDiag (tFlat (tLowerW (m ((c.tc : Thread nD τ).loc main_arg2))))
      ∧ r.2.mem ((c.tc : Thread nD τ).loc main_v27)
          = tDiag (tFlat (tUpperW (m ((c.tc : Thread nD τ).loc main_arg1)) (m ((c.tc : Thread nD τ).loc main_arg2))))
      ∧ r.2.mem ((c.tc : Thread nD τ).loc main_v21) = (zeroRow : FVec F S1x8192 .f32)
      ∧ r.2.mem ((c.tc : Thread nD τ).loc main_v23)
          = tUpperBias (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v0).trans (out_v0 _), (h c main_v14).trans (out_v14 _), (h c main_v17).trans (out_v17 _),
        (h c main_v25).trans (out_v25 _), (h c main_v27).trans (out_v27 _), (h c main_v21).trans (out_v21 _),
        (h c main_v23).trans (out_v23 _), (h c main_arg0).trans (out_arg0 _), (h c main_arg1).trans (out_arg1 _),
        (h c main_arg2).trans (out_arg2 _), (h c main_arg3).trans (out_arg3 _)⟩)
    (run_main m ρ)

end Cert.ReferenceIdeal.RefValue

end
-- ==== Proof.RefValue.lean ====
/-
  The reference's seven results are the specification's arrays, at the extended reals.

  Read at an index, every row the reference computes is the specification's scalar function of the bounds there:
  a broadcast constant reads its value everywhere, an elementwise operation reads its operands at the same index, the
  complement of a one-bit word is its exclusive-or with one, and the host's quotient is the quotient. A diagonal
  matrix read at row `r`, column `c`: the two index grids hold `r` and `c` as 32-bit words, equal exactly when
  `r = c` (both are below 2³²); the vector, padded by nothing and broadcast along the rows, reads at `r`; off the
  diagonal the zero. The specification reads the vector at `c`, which on the diagonal is `r`.
-/
import proofs.«158999_j2800318677430_2_alg».proof.Proof.RefOut
import proofs.«158999_j2800318677430_2_alg».proof.Proof.Spec
import Idealize.ShloMosaic.Lib.KernelVsHost
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
  Idealize.ShloMosaic.ValueIdx

/-! ## The rows, for any float values where no quotient is involved -/

section AnyInstance
variable {F : FTy → Type} [FloatOps F]

theorem zeroRow_apply (i : S1x8192.Idx) : (zeroRow : FVec F S1x8192 .f32) i = Cert.Spec.zero := rfl
theorem oneRow_apply (i : S1x8192.Idx) : (oneRow : FVec F S1x8192 .f32) i = Cert.Spec.one := rfl
theorem tDead_apply (u : FVec F S1x8192 .f32) (i : S1x8192.Idx) : tDead u i = Cert.Spec.dead (u i) := rfl
theorem tActive_apply (l : FVec F S1x8192 .f32) (i : S1x8192.Idx) : tActive l i = Cert.Spec.active (l i) := rfl

/-- The complement of a one-bit word is its exclusive-or with one. -/
theorem not_eq_xori_one (b : BitVec 1) : ~~~b = IntOp.xori b 1#1 := by
  rcases BitVec.eq_zero_or_eq_one b with h | h <;> subst h <;> decide

theorem tCross_apply (l u : FVec F S1x8192 .f32) (i : S1x8192.Idx) :
    tCross l u i = Cert.Spec.crossing (l i) (u i) := by
  show IntOp.andi (~~~(Cert.Spec.dead (u i))) (~~~(Cert.Spec.active (l i))) = _
  rw [not_eq_xori_one, not_eq_xori_one]
  rfl

theorem tX_eq (x : FVec F S1x8192 .f32) : tX x = Cert.Spec.xOut x := rfl
theorem tLowerRet_eq (l u : FVec F S1x8192 .f32) : tLowerRet l u = Cert.Spec.lowerRetRow l u := rfl
theorem zeroRow_eq : (zeroRow : FVec F S1x8192 .f32) = Cert.Spec.lowerBiasRow := rfl
theorem tLowerW_apply (u : FVec F S1x8192 .f32) (i : S1x8192.Idx) : tLowerW u i = Cert.Spec.lowerWeight (u i) := rfl

end AnyInstance

/-! ## The rows that divide, at the extended reals -/

theorem tSlope_apply (l u : FVec Ideal S1x8192 .f32) (i : S1x8192.Idx) :
    tSlope l u i = Cert.Spec.slope (l i) (u i) := by
  show Scalar.select (tCross l u i)
      (FloatOps.hostDivf (u i) (Scalar.select (tCross l u i) (FloatOps.subf (u i) (l i)) Cert.Spec.one)) Cert.Spec.zero = _
  rw [tCross_apply]
  rfl

theorem tUpperRet_eq (l u : FVec Ideal S1x8192 .f32) : tUpperRet l u = Cert.Spec.upperRetRow l u := by
  funext i
  show Scalar.select (Cert.Spec.dead (u i)) Cert.Spec.zero
      (Scalar.select (Cert.Spec.active (l i)) (u i) (FloatOps.mulf (tSlope l u i) (u i))) = _
  rw [tSlope_apply]
  rfl

theorem tUpperW_apply (l u : FVec Ideal S1x8192 .f32) (i : S1x8192.Idx) :
    tUpperW l u i = Cert.Spec.upperWeight (l i) (u i) := by
  show Scalar.select (Cert.Spec.dead (u i)) Cert.Spec.zero
      (Scalar.select (Cert.Spec.active (l i)) Cert.Spec.one (tSlope l u i)) = _
  rw [tSlope_apply]
  rfl

theorem tUpperBias_eq (l u : FVec Ideal S1x8192 .f32) : tUpperBias l u = Cert.Spec.upperBiasRow l u := by
  funext i
  show Scalar.select (tCross l u i) (FloatOps.mulf (tSlope l u i) (l i)) Cert.Spec.zero = _
  rw [tCross_apply, tSlope_apply]
  rfl

/-! ## The diagonal -/

section Diag
variable {F : FTy → Type} [FloatOps F]

/-- Two numbers below 8192 are equal as 32-bit words exactly when they are equal: the comparison of the row grid
    (plus the zero grid) with the column grid, as a one-bit word. -/
theorem grid_eq (r c : Fin 8192) :
    IntOp.cmpi .eq (IntOp.addi (BitVec.ofNat 32 r.val) 0#32) (BitVec.ofNat 32 c.val) = if r.val = c.val then 1#1 else 0#1 := by
  have hr : r.val < 2 ^ 32 := lt_trans r.isLt (by norm_num)
  have hc : c.val < 2 ^ 32 := lt_trans c.isLt (by norm_num)
  unfold IntOp.cmpi IntOp.addi
  rw [BitVec.add_zero]
  by_cases h : r.val = c.val
  · rw [if_pos h, h]; simp
  · rw [if_neg h]
    have hne : BitVec.ofNat 32 r.val ≠ BitVec.ofNat 32 c.val := by
      intro e
      have := congrArg BitVec.toNat e
      rw [BitVec.toNat_ofNat, BitVec.toNat_ofNat, Nat.mod_eq_of_lt hr, Nat.mod_eq_of_lt hc] at this
      exact h this
    rw [beq_eq_false_iff_ne.mpr hne]
    rfl

/-- A row as a vector, read at `r`: the row at `(0, r)`. -/
theorem tFlat_apply (v : FVec F S1x8192 .f32) (r : Fin 8192) : tFlat v (ix1 r) = v (ix2 (0 : Fin 1) r) :=
  shapeCast_1a_a_apply v shapeCasts_S1x8192_S8192 r

/-- The diagonal matrix read at `(r, c)`: the vector at `r` when `r = c`, zero otherwise. -/
theorem tDiag_apply (d : FVec F S8192 .f32) (r c : Fin 8192) :
    tDiag d (ix2 r c) = if r.val = c.val then d (ix1 r) else Cert.Spec.zero := by
  show Scalar.select (IntOp.cmpi .eq (IntOp.addi (BitVec.ofNat 32 r.val) 0#32) (BitVec.ofNat 32 c.val))
      (broadcastInDim S8192x8192 ![0, 1] bcast_S8192x1_S8192x8192_0_1
        (broadcastInDim S8192x1 ![0] bcast_S8192_S8192x1_0
          (pad S8192 ![0] ![0] ![0] d (constant S_ .f32 0x00000000#32 : FVec F S_ .f32) pads_S8192_S8192_000 h_S_)) (ix2 r c))
      Cert.Spec.zero = _
  rw [grid_eq]
  by_cases h : r.val = c.val
  · rw [if_pos h, if_pos h, select_one]
    rw [broadcastInDim_apply ![0, 1] bcast_S8192x1_S8192x8192_0_1 _ (ix2 r c) (ix2 r (0 : Fin 1)) (fun a => by
      match a with
      | ⟨0, _⟩ => rfl
      | ⟨1, _⟩ => rfl)]
    rw [broadcastInDim_apply ![0] bcast_S8192_S8192x1_0 _ (ix2 r (0 : Fin 1)) (ix1 r) (fun a => by
      match a with
      | ⟨0, _⟩ => rfl)]
    exact pad_apply_of_inside ![0] ![0] ![0] d _ pads_S8192_S8192_000 h_S_ (ix1 r) (ix1 r) (fun a => by
      match a with
      | ⟨0, _⟩ => show r.val = 0 + r.val * (0 + 1); omega)
  · rw [if_neg h, if_neg h, select_zero]

end Diag

/-- A row's diagonal matrix as the reference builds it is the specification's. -/
theorem tDiag_tFlat_eq {F : FTy → Type} [FloatOps F] (v d : FVec F S1x8192 .f32) (hv : ∀ i, v i = d i) :
    tDiag (tFlat v) = Cert.Spec.diag d := by
  funext i
  obtain ⟨r, c, rfl⟩ : ∃ (r c : Fin 8192), i = ix2 r c := ⟨i 0, i 1, eq_ix2 i⟩
  rw [tDiag_apply, tFlat_apply, hv]
  show _ = if r.val = c.val then d (ix2 (0 : Fin 1) (⟨c.val, _⟩ : Fin 8192)) else Cert.Spec.zero
  by_cases h : r.val = c.val
  · rw [if_pos h, if_pos h]
    have hrc : r = c := Fin.ext h
    subst hrc
    rfl
  · rw [if_neg h, if_neg h]

theorem tLowerWeights_eq {F : FTy → Type} [FloatOps F] (u : FVec F S1x8192 .f32) :
    tDiag (tFlat (tLowerW u)) = Cert.Spec.lowerWeights u :=
  tDiag_tFlat_eq (tLowerW u) (fun i => Cert.Spec.lowerWeight (u i)) (tLowerW_apply u)

theorem tUpperWeights_eq (l u : FVec Ideal S1x8192 .f32) :
    tDiag (tFlat (tUpperW l u)) = Cert.Spec.upperWeights l u :=
  tDiag_tFlat_eq (tUpperW l u) (fun i => Cert.Spec.upperWeight (l i) (u i)) (tUpperW_apply l u)

/-! ## The run -/

/-- At the compiled mesh, at the extended reals, from any memory with zero counters: every weakly fair execution of
    the reference terminates with its seven results the specification's arrays of the argument rows at launch, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Spec.xOut (F := Ideal) (m ((c.tc : Thread nD τ).loc main_arg0))
      ∧ r.2.mem ((c.tc : Thread nD τ).loc main_v14)
          = Cert.Spec.lowerRetRow (F := Ideal) (m ((c.tc : Thread nD τ).loc main_arg1)) (m ((c.tc : Thread nD τ).loc main_arg2))
      ∧ r.2.mem ((c.tc : Thread nD τ).loc main_v17)
          = Cert.Spec.upperRetRow (F := Ideal) (m ((c.tc : Thread nD τ).loc main_arg1)) (m ((c.tc : Thread nD τ).loc main_arg2))
      ∧ r.2.mem ((c.tc : Thread nD τ).loc main_v25) = Cert.Spec.lowerWeights (F := Ideal) (m ((c.tc : Thread nD τ).loc main_arg2))
      ∧ r.2.mem ((c.tc : Thread nD τ).loc main_v27)
          = Cert.Spec.upperWeights (F := Ideal) (m ((c.tc : Thread nD τ).loc main_arg1)) (m ((c.tc : Thread nD τ).loc main_arg2))
      ∧ r.2.mem ((c.tc : Thread nD τ).loc main_v21) = Cert.Spec.lowerBiasRow (F := Ideal)
      ∧ r.2.mem ((c.tc : Thread nD τ).loc main_v23)
          = Cert.Spec.upperBiasRow (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c =>
      ⟨(h c).1.trans (tX_eq _),
        (h c).2.1.trans (tLowerRet_eq _ _),
        (h c).2.2.1.trans (tUpperRet_eq _ _),
        (h c).2.2.2.1.trans (tLowerWeights_eq _),
        (h c).2.2.2.2.1.trans (tUpperWeights_eq _ _),
        (h c).2.2.2.2.2.1.trans zeroRow_eq,
        (h c).2.2.2.2.2.2.1.trans (tUpperBias_eq _ _),
        (h c).2.2.2.2.2.2.2⟩)
    (run_terms m ρ)

end Cert.ReferenceIdeal.RefValue

end
-- ==== Proof.lean ====
/-
  The claim. Both programs compute, neuron by neuron, the ReLU relaxation bounds of a layer of 8192 neurons — the clipped
  input, the lower and upper output bounds, the two bias rows — and the two 8192 × 8192 diagonal weight matrices.

  The kernel walks an 8 × 8 grid of 1024 × 1024 tiles: at the first tile of each row of tiles it stores the five row
  outputs for that row-block, and at every tile it stores the tile of each weight matrix, the diagonal segment on the
  diagonal of tiles and zero elsewhere. The reference computes the rows whole and builds each matrix by selecting, at
  (r, c), the row's entry where r = c and zero otherwise. Element by element the two are the same expressions in the
  same float operations (Proof/Spec.lean), so no law of arithmetic and no finiteness is used: the precondition is never
  opened.

  Proof/KI (the idealized kernel) and Proof/K (the kernel as printed; the same text in its namespace) hold the body's four
  cases run symbolically, the proof data and the pipeline's run; Proof/KI/Value* read the kernel's seven result arrays
  as the specification's; Proof/Ref* run the reference and read its seven results as the specification's.
-/
import proofs.«158999_j2800318677430_2_alg».proof.Defs
import proofs.«158999_j2800318677430_2_alg».proof.Proof.Gen.Kernel
import proofs.«158999_j2800318677430_2_alg».proof.Proof.Gen.KernelIdeal
import proofs.«158999_j2800318677430_2_alg».proof.Proof.Gen.ReferenceIdeal
import proofs.«158999_j2800318677430_2_alg».proof.Proof.Gen.Pre_finite_inputs
import proofs.«158999_j2800318677430_2_alg».proof.Proof.K.Body
import proofs.«158999_j2800318677430_2_alg».proof.Proof.KI.ValueRun
import proofs.«158999_j2800318677430_2_alg».proof.Proof.RefValue
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel (hKernel := Cert.Kernel.Gen.facts) (hPre_finite_inputs := Cert.Pre_finite_inputs.Gen.facts) :=
  fun m ρ _ => Cert.Kernel.Body.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

/-- The reference's frame is its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2.2) (Cert.ReferenceIdeal.RefValue.run m ρ)

/-- The ideal pass rewrote nothing. -/
theorem preserves : Cert.preserves_Kernel_KernelIdeal := trivial

/-- Both idealized programs end with the specification's seven arrays of the argument rows, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, _, _, _, Cert.KernelIdeal.Body.run (F := Ideal) m ρ, ?_⟩
  refine (θ_run Cert.ReferenceIdeal.defs _ _).mono (fun _ h c => ?_) (Cert.ReferenceIdeal.RefValue.run m' ρ')
  obtain ⟨h0, h1, h2, h3, h4, h5, h6, ha⟩ := h c
  obtain ⟨e0, e1, e2, -⟩ := hagree c
  exact ⟨h0.trans (by rw [e0]), h1.trans (by rw [e1, e2]), h2.trans (by rw [e1, e2]), h3.trans (by rw [e2]),
    h4.trans (by rw [e1, e2]), h5, h6.trans (by rw [e1, e2]), ha⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
